-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x256x56x56 : Shape := ⟨4, ![32, 256, 56, 56]⟩
abbrev S256 : Shape := ⟨1, ![256]⟩
abbrev S_ : Shape := ⟨0, ![]⟩

class Facts : Prop where
  bcast_S_S32x256x56x56 : S_.BroadcastsInDim S32x256x56x56 (![] : Fin 0 → Fin S32x256x56x56.rank)
  reducesTo_S32x256x56x56_S_d0_1_2_3 : S32x256x56x56.ReducesTo [0, 1, 2, 3] S_
  h_S_ : 0 < S_.numel
  bcast_S_S256 : S_.BroadcastsInDim S256 (![] : Fin 0 → Fin S256.rank)
  reducesTo_S256_S_d0 : S256.ReducesTo [0] S_

variable [Facts]

def fn {F : FTy → Type} [FloatOps F] (main_arg0 : FVec F S32x256x56x56 .f32) (main_arg1 : FVec F S256 .f32) (main_arg2 : FVec F S256 .f32) : IVec S_ 1 :=
  let main_v0 : FVec F S32x256x56x56 .f32 := Host.absf main_arg0
  let main_cst : FVec F S_ .f32 := constant S_ .f32 0x7F800000#32
  let main_v1 : FVec F S32x256x56x56 .f32 := broadcastInDim S32x256x56x56 ![] bcast_S_S32x256x56x56 main_cst
  let main_v2 : IVec S32x256x56x56 1 := cmpf .olt main_v0 main_v1
  let main_c : IVec S_ 1 := constantI S_ 1 1#1
  let main_v3 : IVec S_ 1 := (fun x v => Host.reduce IntOp.andi x v reducesTo_S32x256x56x56_S_d0_1_2_3 h_S_) main_v2 main_c
  let main_v4 : FVec F S256 .f32 := Host.absf main_arg1
  let main_cst_0 : FVec F S_ .f32 := constant S_ .f32 0x7F800000#32
  let main_v5 : FVec F S256 .f32 := broadcastInDim S256 ![] bcast_S_S256 main_cst_0
  let main_v6 : IVec S256 1 := cmpf .olt main_v4 main_v5
  let main_c_1 : IVec S_ 1 := constantI S_ 1 1#1
  let main_v7 : IVec S_ 1 := (fun x v => Host.reduce IntOp.andi x v reducesTo_S256_S_d0 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  main_v13
-- ==== Kernel.lean ====
abbrev S32x256x56x56 : Shape := ⟨4, ![32, 256, 56, 56]⟩
abbrev S256 : Shape := ⟨1, ![256]⟩
abbrev S32x56x56x256 : Shape := ⟨4, ![32, 56, 56, 256]⟩
abbrev S32x3136x256 : Shape := ⟨3, ![32, 3136, 256]⟩
abbrev S1x256 : Shape := ⟨2, ![1, 256]⟩
abbrev S2x3136x256 : Shape := ⟨3, ![2, 3136, 256]⟩
abbrev S6272x256 : Shape := ⟨2, ![6272, 256]⟩
abbrev S256x256 : Shape := ⟨2, ![256, 256]⟩
abbrev S256x128 : Shape := ⟨2, ![256, 128]⟩
abbrev S6272x128 : Shape := ⟨2, ![6272, 128]⟩

abbrev nBuf : Space → Nat
  | .hbm => 10
  | .vmem => 6
  | .smem => 0
  | _ => 0

abbrev bufTy : (tb : Table) → Fin (tcTables nBuf tb) → BufTy
  | .hbm, ⟨0, _⟩ => ⟨S32x256x56x56, .f32⟩
  | .hbm, ⟨1, _⟩ => ⟨S256, .f32⟩
  | .hbm, ⟨2, _⟩ => ⟨S256, .f32⟩
  | .hbm, ⟨3, _⟩ => ⟨S32x56x56x256, .f32⟩
  | .hbm, ⟨4, _⟩ => ⟨S32x3136x256, .f32⟩
  | .hbm, ⟨5, _⟩ => ⟨S1x256, .f32⟩
  | .hbm, ⟨6, _⟩ => ⟨S1x256, .f32⟩
  | .hbm, ⟨7, _⟩ => ⟨S32x3136x256, .f32⟩
  | .hbm, ⟨8, _⟩ => ⟨S32x56x56x256, .f32⟩
  | .hbm, ⟨9, _⟩ => ⟨S32x256x56x56, .f32⟩
  | .local _ .vmem, ⟨0, _⟩ => ⟨S2x3136x256, .f32⟩
  | .local _ .vmem, ⟨1, _⟩ => ⟨S2x3136x256, .f32⟩
  | .local _ .vmem, ⟨2, _⟩ => ⟨S1x256, .f32⟩
  | .local _ .vmem, ⟨3, _⟩ => ⟨S1x256, .f32⟩
  | .local _ .vmem, ⟨4, _⟩ => ⟨S2x3136x256, .f32⟩
  | .local _ .vmem, ⟨5, _⟩ => ⟨S2x3136x256, .f32⟩
  | _, _ => ⟨S32x256x56x56, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x3136x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2x3136x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S32x256x56x56_S32x56x56x256_0_2_3_1 : S32x256x56x56.Transposes [0, 2, 3, 1] S32x56x56x256
  shapeCasts_S32x56x56x256_S32x3136x256 : S32x56x56x256.ShapeCasts S32x3136x256
  shapeCasts_S256_S1x256 : S256.ShapeCasts S1x256
  inb_S2x3136x256_S2x3136x256_0_0_0 : ∀ a, (![0, 0, 0] : Fin 3 → Nat) a + S2x3136x256.size a ≤ S2x3136x256.size a
  h_S2x3136x256 : 0 < S2x3136x256.numel
  shapeCasts_S2x3136x256_S2x3136x256 : S2x3136x256.ShapeCasts S2x3136x256
  shapeCasts_S2x3136x256_S6272x256 : S2x3136x256.ShapeCasts S6272x256
  slices_S6272x256_o0_0_S6272x128 : S6272x256.Slices ![0, 0] S6272x128
  concatenates_S6272x128_S6272x128_S6272x256_d1 : Shape.Concatenates [S6272x128, S6272x128] S6272x256 1
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S6272x256 : S1x256.Broadcasts S6272x256
  shapeCasts_S6272x256_S2x3136x256 : S6272x256.ShapeCasts S2x3136x256
  shapeCasts_S32x3136x256_S32x56x56x256 : S32x3136x256.ShapeCasts S32x56x56x256
  transposes_S32x56x56x256_S32x256x56x56_0_3_1_2 : S32x56x56x256.Transposes [0, 3, 1, 2] S32x256x56x56
  dot_S6272x256_S256x256_S6272x256_1_0_0_1_n_n_wf : DotDims.WF S6272x256 S256x256 S6272x256 [1] [0] [0] [1] [] []
  dot_S6272x256_S256x128_S6272x128_1_0_0_1_n_n_wf : DotDims.WF S6272x256 S256x128 S6272x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x3136x256.size a ≤ S32x3136x256.size a
  hwx0_0 : ∀ i : grid0.Coords, EltTy.bits .f32 = 32 ∨ (Rect.block (s := S32x3136x256) S2x3136x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x256.size a ≤ S1x256.size a
  hwx0_1 : ∀ i : grid0.Coords, EltTy.bits .f32 = 32 ∨ (Rect.block (s := S1x256) S1x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2x3136x256.size a ≤ S32x3136x256.size a
  hwx0_3 : ∀ i : grid0.Coords, EltTy.bits .f32 = 32 ∨ (Rect.block (s := S32x3136x256) S2x3136x256.size (cc0_transform_3 i) (hinb0_3 i)).WholeWords (EltTy.packing .f32)

variable [Facts₀]

def dot_S6272x256_S256x256_S6272x256_1_0_0_1_n_n : DotDims S6272x256 S256x256 S6272x256 where
  lhsContracting := [1]
  rhsContracting := [0]
  lhsNonContracting := [0]
  rhsNonContracting := [1]
  lhsBatch := []
  rhsBatch := []
  wf := dot_S6272x256_S256x256_S6272x256_1_0_0_1_n_n_wf
def dot_S6272x256_S256x128_S6272x128_1_0_0_1_n_n : DotDims S6272x256 S256x128 S6272x128 where
  lhsContracting := [1]
  rhsContracting := [0]
  lhsNonContracting := [0]
  rhsNonContracting := [1]
  lhsBatch := []
  rhsBatch := []
  wf := dot_S6272x256_S256x128_S6272x128_1_0_0_1_n_n_wf

abbrev win0_0 : Pipeline.Window sig grid0 :=
  Pipeline.Window.ofSpec (Memref.whole main_v1) S2x3136x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S2x3136x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32x256x56x56 : Shape := ⟨4, ![32, 256, 56, 56]⟩
abbrev S256 : Shape := ⟨1, ![256]⟩
abbrev S_ : Shape := ⟨0, ![]⟩
abbrev S32x256x3136 : Shape := ⟨3, ![32, 256, 3136]⟩
abbrev S256x1 : Shape := ⟨2, ![256, 1]⟩
abbrev S1x256x2048 : Shape := ⟨3, ![1, 256, 2048]⟩
abbrev S1x2048 : Shape := ⟨2, ![1, 2048]⟩
abbrev S1x1x2048 : Shape := ⟨3, ![1, 1, 2048]⟩
abbrev S1x256x1 : Shape := ⟨3, ![1, 256, 1]⟩

abbrev nBuf : Space → Nat
  | .hbm => 12
  | .vmem => 6
  | .smem => 0
  | _ => 0

abbrev bufTy : (tb : Table) → Fin (tcTables nBuf tb) → BufTy
  | .hbm, ⟨0, _⟩ => ⟨S32x256x56x56, .f32⟩
  | .hbm, ⟨1, _⟩ => ⟨S256, .f32⟩
  | .hbm, ⟨2, _⟩ => ⟨S256, .f32⟩
  | .hbm, ⟨3, _⟩ => ⟨S_, .f32⟩
  | .hbm, ⟨4, _⟩ => ⟨S256, .f32⟩
  | .hbm, ⟨5, _⟩ => ⟨S_, .f32⟩
  | .hbm, ⟨6, _⟩ => ⟨S256, .f32⟩
  | .hbm, ⟨7, _⟩ => ⟨S32x256x3136, .f32⟩
  | .hbm, ⟨8, _⟩ => ⟨S256x1, .f32⟩
  | .hbm, ⟨9, _⟩ => ⟨S256x1, .f32⟩
  | .hbm, ⟨10, _⟩ => ⟨S32x256x3136, .f32⟩
  | .hbm, ⟨11, _⟩ => ⟨S32x256x56x56, .f32⟩
  | .local _ .vmem, ⟨0, _⟩ => ⟨S1x256x2048, .f32⟩
  | .local _ .vmem, ⟨1, _⟩ => ⟨S1x256x2048, .f32⟩
  | .local _ .vmem, ⟨2, _⟩ => ⟨S256x1, .f32⟩
  | .local _ .vmem, ⟨3, _⟩ => ⟨S256x1, .f32⟩
  | .local _ .vmem, ⟨4, _⟩ => ⟨S1x256x2048, .f32⟩
  | .local _ .vmem, ⟨5, _⟩ => ⟨S1x256x2048, .f32⟩
  | _, _ => ⟨S32x256x56x56, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![32, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S256x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S256x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  bcast_S_S256 : S_.BroadcastsInDim S256 (![] : Fin 0 → Fin S256.rank)
  shapeCasts_S32x256x56x56_S32x256x3136 : S32x256x56x56.ShapeCasts S32x256x3136
  shapeCasts_S256_S256x1 : S256.ShapeCasts S256x1
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S1x256x2048 : S1x256x2048.ShapeCasts S1x256x2048
  reduces_S1x256x2048_S1x2048 : S1x256x2048.Reduces [1] S1x2048
  shapeCasts_S1x2048_S1x1x2048 : S1x2048.ShapeCasts S1x1x2048
  broadcasts_S1x1x2048_S1x256x2048 : S1x1x2048.Broadcasts S1x256x2048
  inb_S256x1_S256x1_0_0 : ∀ a, (![0, 0] : Fin 2 → Nat) a + S256x1.size a ≤ S256x1.size a
  h_S256x1 : 0 < S256x1.numel
  shapeCasts_S256x1_S256x1 : S256x1.ShapeCasts S256x1
  shapeCasts_S256x1_S1x256x1 : S256x1.ShapeCasts S1x256x1
  broadcasts_S1x256x1_S1x256x2048 : S1x256x1.Broadcasts S1x256x2048
  shapeCasts_S32x256x3136_S32x256x56x56 : S32x256x3136.ShapeCasts S32x256x56x56
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S1x256x2048.size a < S32x256x3136.size a
  hwx0_0 : ∀ i : grid0.Coords, EltTy.bits .f32 = 32 ∨ (Rect.unit (s := S32x256x3136) (fun a => cc0_transform_0 i a * S1x256x2048.size a) (fun a => (Pipeline.Clip.of (cc0_transform_0 i a) (S1x256x2048.size a) (S32x256x3136.size a)).extent (S1x256x2048.size a)) fun a => Pipeline.Clip.inb (Pipeline.Clip.ok_of (hstart0_0 i a))).WholeWords (EltTy.packing .f32)
  hwxs0_0 : ∀ i : grid0.Coords, EltTy.bits .f32 = 32 ∨ (Rect.unit (s := S1x256x2048) (fun _ => 0) (fun a => (Pipeline.Clip.of (cc0_transform_0 i a) (S1x256x2048.size a) (S32x256x3136.size a)).extent (S1x256x2048.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x1.size a ≤ S256x1.size a
  hwx0_1 : ∀ i : grid0.Coords, EltTy.bits .f32 = 32 ∨ (Rect.block (s := S256x1) S256x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S256x1.size a
  hwx0_2 : ∀ i : grid0.Coords, EltTy.bits .f32 = 32 ∨ (Rect.block (s := S256x1) S256x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S1x256x2048.size a < S32x256x3136.size a
  hwx0_3 : ∀ i : grid0.Coords, EltTy.bits .f32 = 32 ∨ (Rect.unit (s := S32x256x3136) (fun a => cc0_transform_3 i a * S1x256x2048.size a) (fun a => (Pipeline.Clip.of (cc0_transform_3 i a) (S1x256x2048.size a) (S32x256x3136.size a)).extent (S1x256x2048.size a)) fun a => Pipeline.Clip.inb (Pipeline.Clip.ok_of (hstart0_3 i a))).WholeWords (EltTy.packing .f32)
  hwxs0_3 : ∀ i : grid0.Coords, EltTy.bits .f32 = 32 ∨ (Rect.unit (s := S1x256x2048) (fun _ => 0) (fun a => (Pipeline.Clip.of (cc0_transform_3 i a) (S1x256x2048.size a) (S32x256x3136.size a)).extent (S1x256x2048.size a)) fun a => (Nat.zero_add _).trans_le (Pipeline.Clip.extent_le (Pipeline.Clip.ok_of (hstart0_3 i a)))).WholeWords (EltTy.packing .f32)

variable [Facts₀]

abbrev win0_0 : Pipeline.Window sig grid0 :=
  Pipeline.Window.ofSpecClip (Memref.whole main_v2) S1x256x2048.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_v3) S256x1.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S256x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpecClip (Memref.whole main_v5) S1x256x2048.size cc0_transform_3 reads0_3 true false 2 stage0_3 sem0_3
    hrank0 hreads0_3 hstart0_3 nbuf0_3 (Memref.isWhole_whole _) hwx0_3 hwxs0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== Proof.RowNorm.lean ====
/-
  Layer normalisation of one channel vector, followed by an affine map and a clamp at zero, written in the two
  arrangements the two programs compute it in, over the extended reals.

  A row is the vector `x : Fin 256 → EReal` of the 256 channel values at one (image, pixel) position; `W` and `B` are
  the per-channel scale and shift.

  * ONE PASS (`foldedRow`): the mean is `∑ x_k · 2⁻⁸` and the second moment `∑ x_k² · 2⁻⁸` — the factor 1/256 sits
    INSIDE each sum — and the variance is the second moment less the squared mean.
  * TWO PASSES (`centredRow`): the mean is `(∑ x_k) / 256` and the variance `(∑ (x_k − mean)²) / 256`.

  Both then return `max (((x_c − mean) · rsqrt (variance + ε)) · W_c + B_c) 0`.

  For REAL entries the two means are one real number and so are the two variances (the textbook identity
  `E[(x − μ)²] = E[x²] − μ²`, which needs the entries finite: it moves a factor across a sum and cancels), hence the
  rows agree (`foldedRow_eq_centredRow`). Nothing is assumed of `W` and `B`: both arrangements apply them by the same
  two operations in the same order.  The constants stay the bit patterns the programs spell; only `2⁻⁸` and `256` are
  evaluated, to the reals they denote.
-/
import Idealize.ShloMosaic.PureOps.Ideal
import Idealize.ShloMosaic.Lib.ValueIdx

noncomputable section

namespace Cert.RowNorm

open Idealize.ShloMosaic Idealize.ShloMosaic.ValueIdx

/-! ## The two arrangements of a row -/

/-- The mean with the factor `2⁻⁸` inside the sum. -/
def foldedMean (x : Fin 256 → EReal) : EReal := ∑ k : Fin 256, x k * Ideal.ofBits .f32 0x3B800000#32

/-- The second moment with the factor `2⁻⁸` inside the sum. -/
def foldedSq (x : Fin 256 → EReal) : EReal := ∑ k : Fin 256, (x k * x k) * Ideal.ofBits .f32 0x3B800000#32

/-- One pass: variance as second moment less squared mean. -/
def foldedRow (x W B : Fin 256 → EReal) (c : Fin 256) : EReal :=
  max (((x c - foldedMean x) * Ideal.rsqrt (foldedSq x - foldedMean x * foldedMean x + Ideal.ofBits .f32 0x3727C5AC#32)) * W c + B c)
    (Ideal.ofBits .f32 0x00000000#32)

/-- The mean as the sum divided by 256. -/
def centredMean (x : Fin 256 → EReal) : EReal := Ideal.div (∑ k : Fin 256, x k) (Ideal.ofBits .f32 0x43800000#32)

/-- The variance as the mean of the squared deviations. -/
def centredVar (x : Fin 256 → EReal) : EReal :=
  Ideal.div (∑ k : Fin 256, (x k - centredMean x) * (x k - centredMean x)) (Ideal.ofBits .f32 0x43800000#32)

/-- Two passes. -/
def centredRow (x W B : Fin 256 → EReal) (c : Fin 256) : EReal :=
  max (((x c - centredMean x) * Ideal.rsqrt (centredVar x + Ideal.ofBits .f32 0x3727C5AC#32)) * W c + B c)
    (Ideal.ofBits .f32 0x00000000#32)

/-! ## The two constants that are evaluated -/

/-- The pattern `0x3B800000` is `2⁻⁸ = 1/256`. -/
theorem ofBits_inv256 : Ideal.ofBits .f32 0x3B800000#32 = ((1 / 256 : ℝ) : EReal) := by
  simp [Ideal.ofBits, Ideal.ieee, -EReal.coe_mul]; norm_num

/-- The pattern `0x43800000` is `256`. -/
theorem ofBits_256 : Ideal.ofBits .f32 0x43800000#32 = ((256 : ℝ) : EReal) := by
  simp [Ideal.ofBits, Ideal.ieee, -EReal.coe_mul]; norm_num

/-! ## Real entries -/

/-- A finite sum of reals, read in the extended reals, is the sum of the readings. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

variable (a : Fin 256 → ℝ)

theorem foldedMean_coe : foldedMean (fun k => (a k : EReal)) = (((∑ k, a k) / 256 : ℝ) : EReal) := by
  unfold foldedMean
  rw [ofBits_inv256]
  simp only [← EReal.coe_mul]
  rw [← coe_sum, ← Finset.sum_mul]
  congr 1; ring

theorem centredMean_coe : centredMean (fun k => (a k : EReal)) = (((∑ k, a k) / 256 : ℝ) : EReal) := by
  unfold centredMean
  rw [ofBits_256, Ideal.div_coe (by norm_num : (256 : ℝ) ≠ 0), ← coe_sum, ← EReal.coe_mul]
  congr 1; ring

theorem foldedSq_coe : foldedSq (fun k => (a k : EReal)) = (((∑ k, a k * a k) / 256 : ℝ) : EReal) := by
  unfold foldedSq
  rw [ofBits_inv256]
  simp only [← EReal.coe_mul]
  rw [← coe_sum, ← Finset.sum_mul]
  congr 1; ring

/-- The sum of squared deviations from the mean is the sum of squares less the squared sum over the count. -/
theorem sum_sq_dev : (∑ k, (a k - (∑ j, a j) / 256) * (a k - (∑ j, a j) / 256)) = (∑ k, a k * a k) - (∑ k, a k) * (∑ k, a k) / 256 := by
  have h : ∀ k, (a k - (∑ j, a j) / 256) * (a k - (∑ j, a j) / 256)
      = a k * a k - 2 * ((∑ j, a j) / 256) * a k + ((∑ j, a j) / 256) * ((∑ j, a j) / 256) := fun k => by ring
  simp only [h, Finset.sum_add_distrib, Finset.sum_sub_distrib, ← Finset.mul_sum, Finset.sum_const, Finset.card_univ,
    Fintype.card_fin, nsmul_eq_mul]
  push_cast
  ring

theorem centredVar_coe : centredVar (fun k => (a k : EReal))
    = ((((∑ k, a k * a k) - (∑ k, a k) * (∑ k, a k) / 256) / 256 : ℝ) : EReal) := by
  unfold centredVar
  rw [centredMean_coe]
  simp only [← EReal.coe_sub, ← EReal.coe_mul]
  rw [ofBits_256, Ideal.div_coe (by norm_num : (256 : ℝ) ≠ 0), ← coe_sum, ← EReal.coe_mul, sum_sq_dev]
  congr 1; ring

/-- For real entries the one-pass variance is the two-pass variance. -/
theorem folded_var_coe : foldedSq (fun k => (a k : EReal)) - foldedMean (fun k => (a k : EReal)) * foldedMean (fun k => (a k : EReal))
    = centredVar (fun k => (a k : EReal)) := by
  rw [foldedSq_coe, foldedMean_coe, centredVar_coe, ← EReal.coe_mul, ← EReal.coe_sub]
  congr 1; ring

/-- THE LAW: on a row of real entries the two arrangements agree, whatever the scale and shift. -/
theorem foldedRow_eq_centredRow (x W B : Fin 256 → EReal) (hx : ∀ k, ∃ r : ℝ, x k = (r : EReal)) (c : Fin 256) :
    foldedRow x W B c = centredRow x W B c := by
  choose a ha using hx
  obtain rfl : x = fun k => (a k : EReal) := funext ha
  unfold foldedRow centredRow
  rw [folded_var_coe, foldedMean_coe, centredMean_coe]

/-! ## The whole feature map -/

/-- The feature map's shape (image, channel, row, column) and the channel vectors' shape. -/
abbrev SX : Shape := ⟨4, ![32, 256, 56, 56]⟩
abbrev SC : Shape := ⟨1, ![256]⟩

/-- The channel vector of a feature map at one (image, row, column) position. -/
def rowOf (X : SX.Idx → EReal) (n : Fin 32) (h w : Fin 56) : Fin 256 → EReal := fun k => X (ix4 n k h w)

/-- The normalised, scaled, shifted and clamped feature map, one pass per position. -/
def foldedMap (X : SX.Idx → EReal) (W B : SC.Idx → EReal) : SX.Idx → EReal :=
  fun i => foldedRow (rowOf X (i 0) (i 2) (i 3)) (fun k => W (ix1 k)) (fun k => B (ix1 k)) (i 1)

/-- The same, two passes per position. -/
def centredMap (X : SX.Idx → EReal) (W B : SC.Idx → EReal) : SX.Idx → EReal :=
  fun i => centredRow (rowOf X (i 0) (i 2) (i 3)) (fun k => W (ix1 k)) (fun k => B (ix1 k)) (i 1)

/-- On a feature map of real entries the two maps agree. -/
theorem foldedMap_eq_centredMap (X : SX.Idx → EReal) (W B : SC.Idx → EReal) (hX : ∀ i, ∃ r : ℝ, X i = (r : EReal)) :
    foldedMap X W B = centredMap X W B :=
  funext fun i => foldedRow_eq_centredRow _ _ _ (fun k => hX _) _

end Cert.RowNorm

end
-- ==== Proof.KernelEntryArrays.lean ====
/-
  The arrays the region finds, read at an entry.

  Before the region the feature map, given as (image, channel, row, column), is transposed to (image, row, column,
  channel) and its two pixel axes are merged: row n, pixel h · 56 + w, channel k of the region's first array is entry
  (n, k, h, w) of the feature map.  The scale and the shift are given a leading unit axis.
-/
import proofs.«163687_g2000407525692535_pallasbulk_114_21_alg».proof.Proof.Gen.KernelIdeal.Frame
import proofs.«163687_g2000407525692535_pallasbulk_114_21_alg».proof.Proof.RowNorm
import Idealize.ShloMosaic.Lib.ValueIdx
import Idealize.ShloMosaic.Lib.ValueLayout
import Idealize.ShloMosaic.Lib.Pipeline.Value

noncomputable section

namespace Cert.KernelIdeal.NormValue

open Idealize.ShloMosaic Idealize.ShloMosaic.TcCoe Idealize.ShloMosaic.ValueIdx Idealize.ShloMosaic.Pipeline
open Idealize.SL.Sem
open Cert.KernelIdeal Cert.KernelIdeal.Gen Cert.RowNorm

variable (m : (ℓ : Loc nD τ sig) → Buf (Elt Ideal) ℓ)

/-- Pixel (h, w) as one of the 3136 pixels of an image. -/
def pixIx (h w : Fin 56) : Fin 3136 := ⟨h.val * 56 + w.val, by omega⟩

/-- The region's first array: the feature map transposed to channels last, the pixel axes merged. -/
theorem V_main_v1 (c : Dev nD) : (V m c main_v1 : S32x3136x256.Idx → EReal)
    = shapeCast S32x3136x256 (transpose S32x56x56x256 [0, 2, 3, 1] (m ((c : Thread nD τ).loc main_arg0))
        transposes_S32x256x56x56_S32x56x56x256_0_2_3_1) shapeCasts_S32x56x56x256_S32x3136x256 := by
  show StableHlo.after hostOps0 (fun b => m (c, b)) (Proc.devRef .tc main_v1) = _
  after_results
  rfl

/-- The region's second array: the scale as a [1, 256] row. -/
theorem V_main_v2 (c : Dev nD) : (V m c main_v2 : S1x256.Idx → EReal)
    = shapeCast S1x256 (m ((c : Thread nD τ).loc main_arg1)) shapeCasts_S256_S1x256 := by
  show StableHlo.after hostOps0 (fun b => m (c, b)) (Proc.devRef .tc main_v2) = _
  after_results
  rfl

/-- The region's third array: the shift as a [1, 256] row. -/
theorem V_main_v3 (c : Dev nD) : (V m c main_v3 : S1x256.Idx → EReal)
    = shapeCast S1x256 (m ((c : Thread nD τ).loc main_arg2)) shapeCasts_S256_S1x256 := by
  show StableHlo.after hostOps0 (fun b => m (c, b)) (Proc.devRef .tc main_v3) = _
  after_results
  rfl

/-- Channels last with the pixel axes merged, read at image n, pixel (h, w), channel k: the feature map at (n, k, h, w). -/
theorem channelsLast_apply {α : Type} (X : S32x256x56x56.Idx → α) (n : Fin 32) (h w : Fin 56) (k : Fin 256) :
    shapeCast S32x3136x256 (transpose S32x56x56x256 [0, 2, 3, 1] X transposes_S32x256x56x56_S32x56x56x256_0_2_3_1)
        shapeCasts_S32x56x56x256_S32x3136x256 (ix3 n (pixIx h w) k) = X (ix4 n k h w) := by
  refine (shapeCast_apply _ shapeCasts_S32x56x56x256_S32x3136x256 (ix3 n (pixIx h w) k) (ix4 n h w k) ?_).trans ?_
  · rw [Shape.rowMajor_val_three, Shape.rowMajor_val_four]
    show ((n.val * 56 + h.val) * 56 + w.val) * 256 + k.val = (n.val * 3136 + (h.val * 56 + w.val)) * 256 + k.val
    omega
  · refine transpose_apply [0, 2, 3, 1] X transposes_S32x256x56x56_S32x56x56x256_0_2_3_1 (ix4 n h w k) (ix4 n k h w) fun a => ?_
    match a with
    | ⟨0, _⟩ => rfl
    | ⟨1, _⟩ => rfl
    | ⟨2, _⟩ => rfl
    | ⟨3, _⟩ => rfl

theorem V_main_v1_apply (c : Dev nD) (n : Fin 32) (h w : Fin 56) (k : Fin 256) :
    (V m c main_v1 : S32x3136x256.Idx → EReal) (ix3 n (pixIx h w) k) = m ((c : Thread nD τ).loc main_arg0) (ix4 n k h w) := by
  rw [V_main_v1]
  exact channelsLast_apply _ n h w k

theorem V_main_v2_apply (c : Dev nD) (k : Fin 256) :
    (V m c main_v2 : S1x256.Idx → EReal) (ix2 (0 : Fin 1) k) = m ((c : Thread nD τ).loc main_arg1) (ix1 k) := by
  rw [V_main_v2]
  exact shapeCast_a_1a_apply _ shapeCasts_S256_S1x256 (0 : Fin 1) k

theorem V_main_v3_apply (c : Dev nD) (k : Fin 256) :
    (V m c main_v3 : S1x256.Idx → EReal) (ix2 (0 : Fin 1) k) = m ((c : Thread nD τ).loc main_arg2) (ix1 k) := by
  rw [V_main_v3]
  exact shapeCast_a_1a_apply _ shapeCasts_S256_S1x256 (0 : Fin 1) k

end Cert.KernelIdeal.NormValue

end
-- ==== Proof.KernelRowSums.lean ====
/-
  What the kernel's body stores, read at one entry of its block.

  The body holds a block of two images, 3136 pixels each, 256 channels per pixel, and the scale and shift as
  [1, 256] rows.  It lays the block out as 6272 rows of 256 channels.  The mean of a row is taken by multiplying
  the row matrix with a 256 × 256 matrix every entry of which is 2⁻⁸: entry (r, c) of the product is the sum over
  k of x(r, k) · 2⁻⁸, whatever the column c.  The second moment is the same product of the squared entries with a
  256 × 128 matrix of 2⁻⁸.  So every entry of a row of the block is a function of that row alone: the one-pass
  row `foldedRow` of the pixel's channel vector.
-/
import proofs.«163687_g2000407525692535_pallasbulk_114_21_alg».proof.Proof.Gen.KernelIdeal.Skeleton
import proofs.«163687_g2000407525692535_pallasbulk_114_21_alg».proof.Proof.RowNorm
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.NormValue

open Idealize.ShloMosaic Idealize.ShloMosaic.ValueIdx Idealize.ShloMosaic.Pipeline
open Cert.KernelIdeal Cert.KernelIdeal.Gen Cert.RowNorm

/-! ## The two products with a constant matrix -/

/-- The row matrix times the 256 × 256 matrix of one constant: at (r, c), the sum over the row of entry times constant. -/
theorem rowSum256_apply (x : FVec Ideal S6272x256 .f32) (κ : Ideal .f32) (r : Fin 6272) (c : Fin 256) :
    matmul dot_S6272x256_S256x256_S6272x256_1_0_0_1_n_n none x (broadcast S256x256 κ : FVec Ideal S256x256 .f32)
        (constant (F := Ideal) S6272x256 .f32 0x00000000#32) (ix2 r c)
      = ∑ k : Fin 256, x (ix2 r k) * κ := by
  refine (Ideal.matmul_constant_zero_apply dot_S6272x256_S256x256_S6272x256_1_0_0_1_n_n none x (broadcast S256x256 κ : FVec Ideal S256x256 .f32) (ix2 r c)).trans ?_
  rw [← Equiv.sum_comp (contrEquiv1 dot_S6272x256_S256x256_S6272x256_1_0_0_1_n_n 256 rfl rfl).symm]
  refine Finset.sum_congr rfl fun k _ => ?_
  have c2 := contrEquiv1_symm_val dot_S6272x256_S256x256_S6272x256_1_0_0_1_n_n 256 rfl rfl k
  have l2 : dot_S6272x256_S256x256_S6272x256_1_0_0_1_n_n.lhsIdx (ix2 r c)
      ((contrEquiv1 dot_S6272x256_S256x256_S6272x256_1_0_0_1_n_n 256 rfl rfl).symm k) = ix2 r k := by
    funext ax; apply Fin.ext
    match ax with
    | ⟨0, _⟩ => simp [DotDims.lhsIdx, dot_S6272x256_S256x256_S6272x256_1_0_0_1_n_n]; rfl
    | ⟨1, _⟩ => simp [DotDims.lhsIdx, dot_S6272x256_S256x256_S6272x256_1_0_0_1_n_n]; exact c2
  rw [l2]
  rfl

/-- The row matrix times the 256 × 128 matrix of one constant: the same sum, at each of the 128 columns. -/
theorem rowSum128_apply (x : FVec Ideal S6272x256 .f32) (κ : Ideal .f32) (r : Fin 6272) (c : Fin 128) :
    matmul dot_S6272x256_S256x128_S6272x128_1_0_0_1_n_n none x (broadcast S256x128 κ : FVec Ideal S256x128 .f32)
        (constant (F := Ideal) S6272x128 .f32 0x00000000#32) (ix2 r c)
      = ∑ k : Fin 256, x (ix2 r k) * κ := by
  refine (Ideal.matmul_constant_zero_apply dot_S6272x256_S256x128_S6272x128_1_0_0_1_n_n none x (broadcast S256x128 κ : FVec Ideal S256x128 .f32) (ix2 r c)).trans ?_
  rw [← Equiv.sum_comp (contrEquiv1 dot_S6272x256_S256x128_S6272x128_1_0_0_1_n_n 256 rfl rfl).symm]
  refine Finset.sum_congr rfl fun k _ => ?_
  have c2 := contrEquiv1_symm_val dot_S6272x256_S256x128_S6272x128_1_0_0_1_n_n 256 rfl rfl k
  have l2 : dot_S6272x256_S256x128_S6272x128_1_0_0_1_n_n.lhsIdx (ix2 r c)
      ((contrEquiv1 dot_S6272x256_S256x128_S6272x128_1_0_0_1_n_n 256 rfl rfl).symm k) = ix2 r k := by
    funext ax; apply Fin.ext
    match ax with
    | ⟨0, _⟩ => simp [DotDims.lhsIdx, dot_S6272x256_S256x128_S6272x128_1_0_0_1_n_n]; rfl
    | ⟨1, _⟩ => simp [DotDims.lhsIdx, dot_S6272x256_S256x128_S6272x128_1_0_0_1_n_n]; exact c2
  rw [l2]
  rfl

end Cert.KernelIdeal.NormValue

end
-- ==== Proof.KernelLayoutSteps.lean ====
/-
  The entry the kernel's body stores at image b, pixel p, channel c of its block: the one-pass row of that pixel's
  channel vector.

  The block [2, 3136, 256] is laid out as 6272 rows — row b · 3136 + p is pixel p of image b — and back; the mean
  occupies all 256 columns of its row and the first 128 are kept; the reciprocal root, 128 columns wide, is placed
  twice side by side; the scale and shift rows are repeated down the 6272 rows.  Each of these steps reads one entry
  of its operand, and none of the values that are cut or repeated depends on the column, so the stored entry is a
  function of the pixel's 256 channel values, of the channel's scale and of its shift.
-/
import proofs.«163687_g2000407525692535_pallasbulk_114_21_alg».proof.Proof.Gen.KernelIdeal.Skeleton
import proofs.«163687_g2000407525692535_pallasbulk_114_21_alg».proof.Proof.RowNorm
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.NormValue

open Idealize.ShloMosaic Idealize.ShloMosaic.ValueIdx Idealize.ShloMosaic.Pipeline
open Cert.KernelIdeal Cert.KernelIdeal.Gen Cert.RowNorm

/-! ## The layout steps, each read at an entry -/

/-- Pixel `p` of image `b` as one of the 6272 rows. -/
def rowIx (b : Fin 2) (p : Fin 3136) : Fin 6272 := ⟨b.val * 3136 + p.val, by omega⟩

/-- The block as 6272 rows reads, at row (b, p), the block's entry at image b, pixel p. -/
theorem asRows_apply {α : Type} (v : S2x3136x256.Idx → α) (b : Fin 2) (p : Fin 3136) (k : Fin 256) :
    shapeCast S6272x256 v shapeCasts_S2x3136x256_S6272x256 (ix2 (rowIx b p) k) = v (ix3 b p k) := by
  refine shapeCast_apply v shapeCasts_S2x3136x256_S6272x256 (ix2 (rowIx b p) k) (ix3 b p k) ?_
  rw [Shape.rowMajor_val_three, Shape.rowMajor_val_two]
  show (b.val * 3136 + p.val) * 256 + k.val = (b.val * 3136 + p.val) * 256 + k.val
  rfl

/-- The rows as a block read, at image b, pixel p, the entry of row (b, p). -/
theorem asBlock_apply {α : Type} (v : S6272x256.Idx → α) (b : Fin 2) (p : Fin 3136) (c : Fin 256) :
    shapeCast S2x3136x256 v shapeCasts_S6272x256_S2x3136x256 (ix3 b p c) = v (ix2 (rowIx b p) c) := by
  refine shapeCast_apply v shapeCasts_S6272x256_S2x3136x256 (ix3 b p c) (ix2 (rowIx b p) c) ?_
  rw [Shape.rowMajor_val_three, Shape.rowMajor_val_two]
  show (b.val * 3136 + p.val) * 256 + c.val = (b.val * 3136 + p.val) * 256 + c.val
  rfl

/-- The first 128 columns read the same entry. -/
theorem firstHalf_apply {α : Type} (v : S6272x256.Idx → α) (r : Fin 6272) (c : Fin 128) :
    extractStridedSlice S6272x128 ![0, 0] v slices_S6272x256_o0_0_S6272x128 (ix2 r c) = v (ix2 r (⟨c.val, by omega⟩ : Fin 256)) := by
  refine extractStridedSlice_apply ![0, 0] v slices_S6272x256_o0_0_S6272x128 (ix2 r c) (ix2 r (⟨c.val, by omega⟩ : Fin 256)) fun a => ?_
  match a with
  | ⟨0, _⟩ => show r.val = 0 + r.val; omega
  | ⟨1, _⟩ => show c.val = 0 + c.val; omega

/-- Two copies of a 128-column array side by side read, at any of the 256 columns, a value every column of the
    array's row holds. -/
theorem twice_apply {α : Type} (u : S6272x128.Idx → α) (g : α) (r : Fin 6272) (hu : ∀ c' : Fin 128, u (ix2 r c') = g) (c : Fin 256) :
    concatenate S6272x256 1 [⟨S6272x128, u⟩, ⟨S6272x128, u⟩] concatenates_S6272x128_S6272x128_S6272x256_d1 (ix2 r c) = g := by
  by_cases hc : c.val < 128
  · refine (concatenate_pair_apply_left (1 : Fin 2) u u concatenates_S6272x128_S6272x128_S6272x256_d1 (ix2 r c) rfl
      (ix2 r (⟨c.val, hc⟩ : Fin 128)) fun a => ?_).trans (hu _)
    match a with
    | ⟨0, _⟩ => rfl
    | ⟨1, _⟩ => rfl
  · refine (concatenate_pair_apply_right (1 : Fin 2) u u concatenates_S6272x128_S6272x128_S6272x256_d1 (ix2 r c) rfl rfl
      (ix2 r (⟨c.val - 128, by omega⟩ : Fin 128)) (fun a ha => ?_) ?_).trans (hu _)
    · match a with
      | ⟨0, _⟩ => rfl
      | ⟨1, _⟩ => exact absurd rfl ha
    · show (c.val - 128) + 128 = c.val
      omega

/-- A [1, 256] row repeated down the 6272 rows reads, at any row, the row's entry at the column. -/
theorem repeatRow_apply {α : Type} (v : S1x256.Idx → α) (r : Fin 6272) (c : Fin 256) :
    broadcastTo S6272x256 v broadcasts_S1x256_S6272x256 (ix2 r c) = v (ix2 (0 : Fin 1) c) :=
  broadcastTo_1b_ab_apply v broadcasts_S1x256_S6272x256 r c

theorem rsqrt_apply {s : Shape} (v : FVec Ideal s .f32) (i : s.Idx) : rsqrt v i = Ideal.rsqrt (v i) := rfl

end Cert.KernelIdeal.NormValue

end
-- ==== Proof.KernelStoredEntry.lean ====
/-
  The entry the kernel's body stores at image b, pixel p, channel c of its block is the one-pass row `foldedRow` of
  that pixel's channel vector, at channel c.

  On the 6272 × 256 row matrix X of the block: the mean of row r stands in every column of the first product, the
  second moment in every column of the second, so the reciprocal root of (second moment − mean² + ε) is one value per
  row, and doubling its 128 columns to 256 changes nothing.  The entry at (r, c) is then
  max (((X(r, c) − mean r) · root r) · scale c + shift c) 0.
-/
import proofs.«163687_g2000407525692535_pallasbulk_114_21_alg».proof.Proof.Gen.KernelIdeal.Skeleton
import proofs.«163687_g2000407525692535_pallasbulk_114_21_alg».proof.Proof.RowNorm
import proofs.«163687_g2000407525692535_pallasbulk_114_21_alg».proof.Proof.KernelRowSums
import proofs.«163687_g2000407525692535_pallasbulk_114_21_alg».proof.Proof.KernelLayoutSteps
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.NormValue

open Idealize.ShloMosaic Idealize.ShloMosaic.ValueIdx Idealize.ShloMosaic.Pipeline
open Cert.KernelIdeal Cert.KernelIdeal.Gen Cert.RowNorm

/-! ## On the row matrix -/

/-- The mean of each row, in each of the 256 columns. -/
abbrev meanRows (X : FVec Ideal S6272x256 .f32) (κ : Ideal .f32) : FVec Ideal S6272x256 .f32 :=
  matmul dot_S6272x256_S256x256_S6272x256_1_0_0_1_n_n none X (broadcast S256x256 κ : FVec Ideal S256x256 .f32)
    (constant (F := Ideal) S6272x256 .f32 0x00000000#32)

/-- The second moment of each row, in each of 128 columns. -/
abbrev sqRows (X : FVec Ideal S6272x256 .f32) (κ : Ideal .f32) : FVec Ideal S6272x128 .f32 :=
  matmul dot_S6272x256_S256x128_S6272x128_1_0_0_1_n_n none (mulf X X) (broadcast S256x128 κ : FVec Ideal S256x128 .f32)
    (constant (F := Ideal) S6272x128 .f32 0x00000000#32)

/-- The reciprocal root of (second moment − mean² + ε) of each row, in each of 128 columns. -/
abbrev rootRows (X : FVec Ideal S6272x256 .f32) (κ ε : Ideal .f32) : FVec Ideal S6272x128 .f32 :=
  rsqrt (addf (subf (sqRows X κ)
      (mulf (extractStridedSlice S6272x128 ![0, 0] (meanRows X κ) slices_S6272x256_o0_0_S6272x128)
        (extractStridedSlice S6272x128 ![0, 0] (meanRows X κ) slices_S6272x256_o0_0_S6272x128)))
    (broadcast S6272x128 ε))

/-- The root of row r does not depend on the column. -/
theorem rootRows_apply (X : FVec Ideal S6272x256 .f32) (κ ε : Ideal .f32) (r : Fin 6272) (c' : Fin 128) :
    rootRows X κ ε (ix2 r c')
      = Ideal.rsqrt ((∑ k : Fin 256, (X (ix2 r k) * X (ix2 r k)) * κ) - (∑ k : Fin 256, X (ix2 r k) * κ) * (∑ k : Fin 256, X (ix2 r k) * κ) + ε) := by
  simp only [rootRows, sqRows, meanRows, rsqrt_apply, addf_apply, subf_apply, mulf_apply, broadcast_apply, firstHalf_apply]
  rw [rowSum128_apply (mulf X X) κ r c', rowSum256_apply X κ r (⟨c'.val, by omega⟩ : Fin 256)]
  simp only [mulf_apply]

/-! ## The stored entry -/

/-- The entry the body stores at image `b`, pixel `p`, channel `c`: the one-pass row of that pixel's channel vector. -/
theorem stored_apply (x0 : Vec Ideal S2x3136x256 .f32) (v15 v17 : Vec Ideal S1x256 .f32) (b : Fin 2) (p : Fin 3136) (c : Fin 256) :
    k0_pay1 (F := Ideal) x0 v15 v17 (ix3 b p c)
      = foldedRow (fun k => x0 (ix3 b p k)) (fun k => v15 (ix2 (0 : Fin 1) k)) (fun k => v17 (ix2 (0 : Fin 1) k)) c := by
  unfold k0_pay1
  simp only [shapeCast_self]
  refine (asBlock_apply _ b p c).trans ?_
  simp only [maximumf_apply, addf_apply, mulf_apply, subf_apply, broadcast_apply, repeatRow_apply]
  -- the doubled root: one value per row; then the mean where it stands applied
  rw [twice_apply _ _ (rowIx b p) (fun c' => rootRows_apply
      (shapeCast S6272x256 (shapeCast S2x3136x256 x0 shapeCasts_S2x3136x256_S2x3136x256) shapeCasts_S2x3136x256_S6272x256)
      (Scalar.ofBits .f32 0x3B800000#32) (Scalar.ofBits .f32 0x3727C5AC#32) (rowIx b p) c') c,
    rowSum256_apply _ _ (rowIx b p) c]
  simp only [shapeCast_self, asRows_apply]
  rfl

end Cert.KernelIdeal.NormValue

end
-- ==== Proof.KernelBlocks.lean ====
/-
  From the blocks to the region's output array.

  Grid point t holds images 2t and 2t + 1: its input block is rows 2t, 2t + 1 of the region's first array (all 3136
  pixels, all 256 channels), its output block the same rows of the output array; the scale and shift rows are whole
  at every point.  What point t writes back is therefore block t of ONE function of the region's arrays — at image n,
  pixel q, channel ch the one-pass row of the channel vector of (n, q) — and the sixteen blocks tile the 32 images.
-/
import proofs.«163687_g2000407525692535_pallasbulk_114_21_alg».proof.Proof.Gen.KernelIdeal.Frame
import proofs.«163687_g2000407525692535_pallasbulk_114_21_alg».proof.Proof.RowNorm
import proofs.«163687_g2000407525692535_pallasbulk_114_21_alg».proof.Proof.KernelStoredEntry
import Idealize.ShloMosaic.Lib.ValueIdx
import Idealize.ShloMosaic.Lib.Pipeline.Value

noncomputable section

namespace Cert.KernelIdeal.NormValue

open Idealize.ShloMosaic Idealize.ShloMosaic.TcCoe Idealize.ShloMosaic.ValueIdx Idealize.ShloMosaic.Pipeline
open Idealize.SL.Sem
open Cert.KernelIdeal Cert.KernelIdeal.Gen Cert.RowNorm

/-- What the region leaves in its output array, as one function of its three input arrays: at image n, pixel q,
    channel ch, the one-pass row of that pixel's channel vector. -/
def regionOut (A : S32x3136x256.Idx → EReal) (Wr Br : S1x256.Idx → EReal) : S32x3136x256.Idx → EReal :=
  fun i => foldedRow (fun k => A (ix3 (i 0) (i 1) k)) (fun k => Wr (ix2 (0 : Fin 1) k)) (fun k => Br (ix2 (0 : Fin 1) k)) (i 2)

/-- The stored entry at a block index is `regionOut` at an array index, when the block's pixel row is the array's
    (`h0`), the scale and shift rows are the arrays' (`h1`, `h2`) and the channel is the same (`hc`). -/
theorem stored_eq_regionOut (x0 : Vec Ideal S2x3136x256 .f32) (x1 x2 : Vec Ideal S1x256 .f32)
    (A : S32x3136x256.Idx → EReal) (Wr Br : S1x256.Idx → EReal) (j : S2x3136x256.Idx) (i : S32x3136x256.Idx)
    (h0 : ∀ k : Fin 256, x0 (ix3 (j 0) (j 1) k) = A (ix3 (i 0) (i 1) k))
    (h1 : ∀ k : Fin 256, x1 (ix2 (0 : Fin 1) k) = Wr (ix2 (0 : Fin 1) k))
    (h2 : ∀ k : Fin 256, x2 (ix2 (0 : Fin 1) k) = Br (ix2 (0 : Fin 1) k))
    (hc : (j 2).val = (i 2).val) :
    k0_pay1 (F := Ideal) x0 x1 x2 j = regionOut A Wr Br i := by
  refine (congrArg (k0_pay1 (F := Ideal) x0 x1 x2) (eq_ix3 j)).trans ?_
  refine (stored_apply x0 x1 x2 (j 0) (j 1) (j 2)).trans ?_
  have e0 : (fun k : Fin 256 => x0 (ix3 (j 0) (j 1) k)) = fun k => A (ix3 (i 0) (i 1) k) := funext h0
  have e1 : (fun k : Fin 256 => x1 (ix2 (0 : Fin 1) k)) = fun k => Wr (ix2 (0 : Fin 1) k) := funext h1
  have e2 : (fun k : Fin 256 => x2 (ix2 (0 : Fin 1) k)) = fun k => Br (ix2 (0 : Fin 1) k) := funext h2
  have ec : (j 2 : Fin 256) = (i 2 : Fin 256) := Fin.ext hc
  unfold regionOut
  rw [e0, e1, e2, ec]

variable (m : (ℓ : Loc nD τ sig) → Buf (Elt Ideal) ℓ)

theorem hz3 : (![0, 0, 0] : Fin 3 → Nat) = fun _ => 0 := funext fun a => by fin_cases a <;> rfl
theorem hz2 : (![0, 0] : Fin 2 → Nat) = fun _ => 0 := funext fun a => by fin_cases a <;> rfl

/-- The printed index maps, decided over the grid: point t's image block is block t of the first input and of the
    output; every other block index is 0. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0 :=
  (by decide +kernel : ∀ t : Fin grid0.N, _)

/-- The first input's block at point t reads images 2t, 2t + 1 of the region's first array. -/
theorem imageBlock_apply (c : Dev nD) (t : Fin cfg0.N) (b : Fin 2) (p : Fin 3136) (k : Fin 256) (n : Fin 32) (q : Fin 3136)
    (hn : n.val = t.val * 2 + b.val) (hq : q.val = p.val) :
    (iblk m c 0 t : Vec Ideal S2x3136x256 .f32) (ix3 b p k) = (V m c main_v1 : S32x3136x256.Idx → EReal) (ix3 n q k) := by
  obtain ⟨e0, e1, e2, -⟩ := idx_facts t
  unfold iblk
  rw [View.read_apply]
  show V m c main_v1 _ = V m c main_v1 _
  congr 1
  funext a
  apply Fin.ext
  match a with
  | ⟨0, _⟩ => show win0_0.index t 0 * 2 + 1 * b.val = n.val; rw [e0, hn]; omega
  | ⟨1, _⟩ => show win0_0.index t 1 * 3136 + 1 * p.val = q.val; rw [e1, hq]; omega
  | ⟨2, _⟩ => show win0_0.index t 2 * 256 + 1 * k.val = k.val; rw [e2]; omega

/-- The scale's block at any point is the region's second array. -/
theorem scaleBlock_apply (c : Dev nD) (t : Fin cfg0.N) (k : Fin 256) :
    (iblk m c 1 t : Vec Ideal S1x256 .f32) (ix2 (0 : Fin 1) k) = (V m c main_v2 : S1x256.Idx → EReal) (ix2 (0 : Fin 1) k) := by
  obtain ⟨-, -, -, e0, e1, -⟩ := idx_facts t
  unfold iblk
  rw [View.read_apply]
  show V m c main_v2 _ = V m c main_v2 _
  congr 1
  funext a
  apply Fin.ext
  match a with
  | ⟨0, _⟩ => show win0_1.index t 0 * 1 + 1 * 0 = 0; rw [e0]
  | ⟨1, _⟩ => show win0_1.index t 1 * 256 + 1 * k.val = k.val; rw [e1]; omega

/-- The shift's block at any point is the region's third array. -/
theorem shiftBlock_apply (c : Dev nD) (t : Fin cfg0.N) (k : Fin 256) :
    (iblk m c 2 t : Vec Ideal S1x256 .f32) (ix2 (0 : Fin 1) k) = (V m c main_v3 : S1x256.Idx → EReal) (ix2 (0 : Fin 1) k) := by
  obtain ⟨-, -, -, -, -, e0, e1, -⟩ := idx_facts t
  unfold iblk
  rw [View.read_apply]
  show V m c main_v3 _ = V m c main_v3 _
  congr 1
  funext a
  apply Fin.ext
  match a with
  | ⟨0, _⟩ => show win0_2.index t 0 * 1 + 1 * 0 = 0; rw [e0]
  | ⟨1, _⟩ => show win0_2.index t 1 * 256 + 1 * k.val = k.val; rw [e1]; omega

/-- WHAT POINT t WRITES BACK is block t of `regionOut` of the region's input arrays. -/
theorem flushed_eq (c : Dev nD) (t : Fin cfg0.N) :
    (dats m 0 c).flushed 3 t
      = ((cfg0.win 3).blk t).view.read (Elt Ideal) (regionOut (V m c main_v1) (V m c main_v2) (V m c main_v3)) := by
  show (cfg0.win 3).cut (grid0.coords t) ((dats m 0 c).after 3 t) = _
  rw [after0_3]
  unfold out0_3
  rw [View.canon_unit_zero hz3]
  simp only [View.ld_unit_zero (S := S2x3136x256) hz3, View.ld_unit_zero (S := S1x256) hz2]
  obtain ⟨-, -, -, -, -, -, -, e0, e1, e2⟩ := idx_facts t
  funext j
  show k0_pay1 (F := Ideal) (iblk m c 0 t) (iblk m c 1 t) (iblk m c 2 t) j
    = regionOut (V m c main_v1) (V m c main_v2) (V m c main_v3) (((cfg0.win 3).blk t).view.emb j)
  refine stored_eq_regionOut (iblk m c 0 t) (iblk m c 1 t) (iblk m c 2 t) (V m c main_v1) (V m c main_v2) (V m c main_v3)
    j (((cfg0.win 3).blk t).view.emb j) (fun k => ?_) (fun k => scaleBlock_apply m c t k) (fun k => shiftBlock_apply m c t k) ?_
  · refine imageBlock_apply m c t (j 0) (j 1) k _ _ ?_ ?_
    · show win0_3.index t 0 * 2 + 1 * (j 0).val = t.val * 2 + (j 0).val
      rw [e0]; omega
    · show win0_3.index t 1 * 3136 + 1 * (j 1).val = (j 1).val
      rw [e1]; omega
  · show (j 2).val = win0_3.index t 2 * 256 + 1 * (j 2).val
    rw [e2]; omega

/-- An index of the output array is in point t's block iff each coordinate is in the block's range on its axis. -/
theorem mem_blk (t : Fin cfg0.N) (i : S32x3136x256.Idx) :
    i ∈ ((cfg0.win 3).blk t).view.set ↔ ∀ a : Fin 3, win0_3.index t a * S2x3136x256.size a ≤ (i a).val
      ∧ (i a).val < win0_3.index t a * S2x3136x256.size a + S2x3136x256.size a := by
  show i ∈ ((View.whole main_v4).slice (win0_3.rect t)).set ↔ _
  rw [View.set_slice_whole, Rect.mem_set_unit]
  exact Iff.rfl

/-- Image n lies in the block of point n / 2: the sixteen blocks cover the output array. -/
theorem cover (i : S32x3136x256.Idx) : ∃ t : Fin cfg0.N, (cfg0.win 3).flush t = true ∧ i ∈ ((cfg0.win 3).blk t).view.set := by
  have hN : grid0.N = 16 := N_0
  have hi0 : (i 0).val < 32 := (i 0).isLt
  have hi1 : (i 1).val < 3136 := (i 1).isLt
  have hi2 : (i 2).val < 256 := (i 2).isLt
  obtain ⟨t, ht⟩ : ∃ t : Fin cfg0.N, t.val = (i 0).val / 2 := ⟨⟨(i 0).val / 2, by show (i 0).val / 2 < grid0.N; omega⟩, rfl⟩
  refine ⟨t, flush0_3 t, ?_⟩
  rw [mem_blk]
  obtain ⟨-, -, -, -, -, -, -, e0, e1, e2⟩ := idx_facts t
  intro a
  match a with
  | ⟨0, _⟩ => show win0_3.index t 0 * 2 ≤ (i 0).val ∧ (i 0).val < win0_3.index t 0 * 2 + 2; rw [e0, ht]; omega
  | ⟨1, _⟩ => show win0_3.index t 1 * 3136 ≤ (i 1).val ∧ (i 1).val < win0_3.index t 1 * 3136 + 3136; rw [e1]; omega
  | ⟨2, _⟩ => show win0_3.index t 2 * 256 ≤ (i 2).val ∧ (i 2).val < win0_3.index t 2 * 256 + 256; rw [e2]; omega

/-- THE OUTPUT ARRAY after the region: `regionOut` of the region's input arrays. -/
theorem regionArray (c : Dev nD) :
    (dats m 0 c).arrAt 3 cfg0.N = regionOut (V m c main_v1) (V m c main_v2) (V m c main_v3) :=
  (dats m 0 c).arrAt_eq_of_cover 3 (regionOut (V m c main_v1) (V m c main_v2) (V m c main_v3))
    (fun t _ => flushed_eq m c t) cover

end Cert.KernelIdeal.NormValue

end
-- ==== Proof.KernelTail.lean ====
/-
  The result array, read off the operations after the region.

  After the region its output array — (image, pixel, channel) — has the pixel axis split back into rows and columns
  and is transposed to (image, channel, row, column).  Entry (n, k, h, w) of the result is therefore entry
  (n, h · 56 + w, k) of the region's output: the one-pass row of the channel vector at (n, h, w), at channel k, with
  the region's input arrays read back to the feature map, the scale and the shift.
-/
import proofs.«163687_g2000407525692535_pallasbulk_114_21_alg».proof.Proof.Gen.KernelIdeal.Frame
import proofs.«163687_g2000407525692535_pallasbulk_114_21_alg».proof.Proof.RowNorm
import proofs.«163687_g2000407525692535_pallasbulk_114_21_alg».proof.Proof.KernelEntryArrays
import proofs.«163687_g2000407525692535_pallasbulk_114_21_alg».proof.Proof.KernelBlocks
import Idealize.ShloMosaic.Lib.ValueIdx
import Idealize.ShloMosaic.Lib.ValueLayout
import Idealize.ShloMosaic.Lib.Pipeline.Value

noncomputable section

namespace Cert.KernelIdeal.NormValue

open Idealize.ShloMosaic Idealize.ShloMosaic.TcCoe Idealize.ShloMosaic.ValueIdx Idealize.ShloMosaic.Pipeline
open Idealize.SL.Sem
open Cert.KernelIdeal Cert.KernelIdeal.Gen Cert.RowNorm

variable (m : (ℓ : Loc nD τ sig) → Buf (Elt Ideal) ℓ)

/-- The two operations after the region, applied to the region's output array. -/
def unmerge (R : S32x3136x256.Idx → EReal) : S32x256x56x56.Idx → EReal :=
  transpose S32x256x56x56 [0, 3, 1, 2] (shapeCast S32x56x56x256 R shapeCasts_S32x3136x256_S32x56x56x256)
    transposes_S32x56x56x256_S32x256x56x56_0_3_1_2

/-- Entry (n, k, h, w) of the result is entry (n, h · 56 + w, k) of the region's output. -/
theorem unmerge_apply (R : S32x3136x256.Idx → EReal) (n : Fin 32) (k : Fin 256) (h w : Fin 56) :
    unmerge R (ix4 n k h w) = R (ix3 n (pixIx h w) k) := by
  unfold unmerge
  refine (transpose_apply [0, 3, 1, 2] _ transposes_S32x56x56x256_S32x256x56x56_0_3_1_2 (ix4 n k h w) (ix4 n h w k) fun a => ?_).trans ?_
  · match a with
    | ⟨0, _⟩ => rfl
    | ⟨1, _⟩ => rfl
    | ⟨2, _⟩ => rfl
    | ⟨3, _⟩ => rfl
  · refine shapeCast_apply R shapeCasts_S32x3136x256_S32x56x56x256 (ix4 n h w k) (ix3 n (pixIx h w) k) ?_
    rw [Shape.rowMajor_val_three, Shape.rowMajor_val_four]
    show (n.val * 3136 + (h.val * 56 + w.val)) * 256 + k.val = ((n.val * 56 + h.val) * 56 + w.val) * 256 + k.val
    omega

/-- The result array after the run's last operations: they are applied to what the region left in its output array. -/
theorem tail_main_v6 (c : Dev nD) :
    (Pipeline.afterTail₀ cfgs (dats m) 0 (V0 m) [hostOps1] c main_v6 : S32x256x56x56.Idx → EReal)
      = unmerge (regionOut (V m c main_v1) (V m c main_v2) (V m c main_v3)) := by
  have h4 : (Pipeline.withArrays spec0 c (V0 m c) (fun w => (dats m 0 c).arrAt w cfg0.N) (Proc.devRef .tc main_v4) : S32x3136x256.Idx → EReal)
      = regionOut (V m c main_v1) (V m c main_v2) (V m c main_v3) :=
    (Pipeline.withArrays_arr spec0 launch0.win.arr_inj c _ _ 3).trans (regionArray m c)
  unfold Pipeline.afterTail₀
  show StableHlo.after hostOps1 _ (Proc.devRef .tc main_v6) = _
  after_results
  exact congrArg unmerge h4

/-- THE RESULT: the one-pass feature map of the three arguments. -/
theorem result_eq (c : Dev nD) :
    (Pipeline.afterTail₀ cfgs (dats m) 0 (V0 m) [hostOps1] c main_v6 : S32x256x56x56.Idx → EReal)
      = foldedMap (m ((c : Thread nD τ).loc main_arg0)) (m ((c : Thread nD τ).loc main_arg1)) (m ((c : Thread nD τ).loc main_arg2)) := by
  rw [tail_main_v6]
  funext i
  obtain ⟨n, k, h, w, rfl⟩ : ∃ (n : Fin 32) (k : Fin 256) (h w : Fin 56), i = ix4 n k h w := ⟨i 0, i 1, i 2, i 3, eq_ix4 i⟩
  rw [unmerge_apply]
  show foldedRow (fun k' => (V m c main_v1 : S32x3136x256.Idx → EReal) (ix3 n (pixIx h w) k'))
      (fun k' => (V m c main_v2 : S1x256.Idx → EReal) (ix2 (0 : Fin 1) k')) (fun k' => (V m c main_v3 : S1x256.Idx → EReal) (ix2 (0 : Fin 1) k')) k
    = foldedRow (fun k' => m ((c : Thread nD τ).loc main_arg0) (ix4 n k' h w)) (fun k' => m ((c : Thread nD τ).loc main_arg1) (ix1 k'))
      (fun k' => m ((c : Thread nD τ).loc main_arg2) (ix1 k')) k
  have e0 : (fun k' : Fin 256 => (V m c main_v1 : S32x3136x256.Idx → EReal) (ix3 n (pixIx h w) k'))
      = fun k' => m ((c : Thread nD τ).loc main_arg0) (ix4 n k' h w) := funext fun k' => V_main_v1_apply m c n h w k'
  have e1 : (fun k' : Fin 256 => (V m c main_v2 : S1x256.Idx → EReal) (ix2 (0 : Fin 1) k'))
      = fun k' => m ((c : Thread nD τ).loc main_arg1) (ix1 k') := funext fun k' => V_main_v2_apply m c k'
  have e2 : (fun k' : Fin 256 => (V m c main_v3 : S1x256.Idx → EReal) (ix2 (0 : Fin 1) k'))
      = fun k' => m ((c : Thread nD τ).loc main_arg2) (ix1 k') := funext fun k' => V_main_v3_apply m c k'
  rw [e0, e1, e2]

end Cert.KernelIdeal.NormValue

end
-- ==== Proof.KernelRun.lean ====
/-
  The kernel's run, read: from any memory, for any extended-real inputs, the program terminates with its result array
  at the one-pass feature map `foldedMap` of its three arguments, and the arguments unchanged.

  The run itself is the generated frame run; its post names the result as what the operations after the region make of
  the region's output array, which the blocks, the stored entry and the operations before the region identify.
-/
import proofs.«163687_g2000407525692535_pallasbulk_114_21_alg».proof.Proof.Gen.KernelIdeal.Frame
import proofs.«163687_g2000407525692535_pallasbulk_114_21_alg».proof.Proof.RowNorm
import proofs.«163687_g2000407525692535_pallasbulk_114_21_alg».proof.Proof.KernelTail

noncomputable section

namespace Cert.KernelIdeal.NormValue

open Idealize.ShloMosaic Idealize.ShloMosaic.TcCoe Idealize.ShloMosaic.Pipeline
open Idealize.SL.Sem
open Cert.KernelIdeal Cert.KernelIdeal.Gen Cert.RowNorm

/-- Every run of the kernel's program ends with the result at `foldedMap` of the arguments and the arguments as given. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v6)
          = foldedMap (m ((c.tc : Thread Cert.KernelIdeal.nD Cert.KernelIdeal.τ).loc Cert.KernelIdeal.main_arg0))
              (m ((c.tc : Thread Cert.KernelIdeal.nD Cert.KernelIdeal.τ).loc Cert.KernelIdeal.main_arg1))
              (m ((c.tc : Thread Cert.KernelIdeal.nD Cert.KernelIdeal.τ).loc Cert.KernelIdeal.main_arg2))
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)) :=
  (θ_run defs _ _).mono (fun _ h c =>
    ⟨((h c).2 main_v6 (Pipeline.mem_restRefs_of main_v6 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.NormValue

end
-- ==== Proof.RefStored.lean ====
/-
  What the reference's body stores, read at one entry of its block.

  The body holds a block `x0` of shape [1, 256, 2048] — 256 channels by 2048 pixels of one image — and the scale and
  shift as [256, 1] columns `x1`, `x2`.  Every reduction runs over the CHANNEL axis, so the entry stored at channel
  `ch` and pixel `l` is a function of pixel `l`'s channel vector `k ↦ x0 (0, k, l)` alone: the two-pass row
  `centredRow` of that vector at `ch`.  The layout steps between the arithmetic — a unit axis added to the row of
  sums, that row repeated down the channels, the columns repeated along the pixels — each read one entry of their operand.
-/
import proofs.«163687_g2000407525692535_pallasbulk_114_21_alg».proof.Proof.Gen.ReferenceIdeal.Skeleton
import proofs.«163687_g2000407525692535_pallasbulk_114_21_alg».proof.Proof.RowNorm
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.NormValue

open Idealize.ShloMosaic Idealize.ShloMosaic.ValueIdx Idealize.ShloMosaic.Pipeline
open Cert.ReferenceIdeal Cert.ReferenceIdeal.Gen Cert.RowNorm

/-! ## The layout steps, each read at an entry -/

/-- The sum over the channel axis, at pixel `l`: the sum of the 256 entries of that pixel's channel vector. -/
theorem chanSum_apply (v : FVec Ideal S1x256x2048 .f32) (u : Fin 1) (l : Fin 2048) :
    multiReduction (F := Ideal) .add [1] S1x2048 v 0x00000000#32 reduces_S1x256x2048_S1x2048 (.inl rfl) rfl (ix2 u l)
      = ∑ k : Fin 256, v (ix3 (0 : Fin 1) k l) := by
  refine (Ideal.multiReduction_add_single v 0x00000000#32 reduces_S1x256x2048_S1x2048 (.inl rfl) rfl (ix2 u l)).trans ?_
  refine Finset.sum_congr rfl fun k _ => congrArg v (funext fun a => Fin.ext ?_)
  have hu : u.val = 0 := by omega
  match a with
  | ⟨0, _⟩ => exact hu
  | ⟨1, _⟩ => rfl
  | ⟨2, _⟩ => rfl

/-- The row of sums given a unit channel axis reads the same row. -/
theorem rowUnit_apply {α : Type} (v : S1x2048.Idx → α) (u u' : Fin 1) (l : Fin 2048) :
    shapeCast S1x1x2048 v shapeCasts_S1x2048_S1x1x2048 (ix3 u u' l) = v (ix2 u' l) :=
  shapeCast_ab_1ab_apply v shapeCasts_S1x2048_S1x1x2048 u u' l

/-- That row repeated down the 256 channels reads, at any channel, the row's entry at the pixel. -/
theorem rowRepeat_apply {α : Type} (v : S1x1x2048.Idx → α) (u : Fin 1) (ch : Fin 256) (l : Fin 2048) :
    broadcastTo S1x256x2048 v broadcasts_S1x1x2048_S1x256x2048 (ix3 u ch l) = v (ix3 (0 : Fin 1) (0 : Fin 1) l) :=
  broadcastTo_apply v broadcasts_S1x1x2048_S1x256x2048 _ _ fun a => match a with
    | ⟨0, _⟩ => rfl | ⟨1, _⟩ => rfl | ⟨2, _⟩ => rfl

/-- A [256, 1] column given a unit leading axis reads the same column. -/
theorem colUnit_apply {α : Type} (v : S256x1.Idx → α) (u : Fin 1) (ch : Fin 256) (z : Fin 1) :
    shapeCast S1x256x1 v shapeCasts_S256x1_S1x256x1 (ix3 u ch z) = v (ix2 ch z) :=
  shapeCast_ab_1ab_apply v shapeCasts_S256x1_S1x256x1 u ch z

/-- That column repeated along the 2048 pixels reads, at any pixel, the column's entry at the channel. -/
theorem colRepeat_apply {α : Type} (v : S1x256x1.Idx → α) (u : Fin 1) (ch : Fin 256) (l : Fin 2048) :
    broadcastTo S1x256x2048 v broadcasts_S1x256x1_S1x256x2048 (ix3 u ch l) = v (ix3 (0 : Fin 1) ch (0 : Fin 1)) :=
  broadcastTo_apply v broadcasts_S1x256x1_S1x256x2048 _ _ fun a => match a with
    | ⟨0, _⟩ => rfl | ⟨1, _⟩ => rfl | ⟨2, _⟩ => rfl

theorem rsqrt_apply {s : Shape} (v : FVec Ideal s .f32) (i : s.Idx) : rsqrt v i = Ideal.rsqrt (v i) := rfl

/-! ## The stored value at an entry -/

/-- The entry the body stores at channel `ch`, pixel `l`: the two-pass row of that pixel's channel vector. -/
theorem stored_apply (x0 : Vec Ideal S1x256x2048 .f32) (x1 x2 : Vec Ideal S256x1 .f32) (u : Fin 1) (ch : Fin 256) (l : Fin 2048) :
    k0_pay1 (F := Ideal) x0 x1 x2 (ix3 u ch l)
      = centredRow (fun k => x0 (ix3 (0 : Fin 1) k l)) (fun k => x1 (ix2 k (0 : Fin 1))) (fun k => x2 (ix2 k (0 : Fin 1))) ch := by
  obtain rfl : u = 0 := Subsingleton.elim _ _
  unfold k0_pay1 centredRow centredVar centredMean
  simp only [shapeCast_self, maximumf_apply, addf_apply, mulf_apply, subf_apply, divf_apply, broadcast_apply, rsqrt_apply,
    rowRepeat_apply, colRepeat_apply, rowUnit_apply, colUnit_apply]
  -- the sum that gives the mean where it stands applied, then the sum of squared deviations, then the mean inside it
  rw [chanSum_apply x0 0 l, chanSum_apply _ 0 l]
  simp only [mulf_apply, subf_apply, divf_apply, broadcast_apply, rowRepeat_apply, rowUnit_apply]
  rw [chanSum_apply x0 0 l]
  rfl

end Cert.ReferenceIdeal.NormValue

end
-- ==== Proof.RefBody.lean ====
/-
  The reference's normalising region, run point by point.

  The region walks a grid of 32 images by 2 pixel tiles.  At a point its body holds one image's 256 channels over a
  tile of 2048 pixels, the scale and the shift as columns, and writes the normalised tile.  The feature map has 3136
  pixels per image, so the second tile overhangs the array: the transfer in brings 1088 pixels and leaves the other
  960 staging cells at words nothing names, and the transfer out writes back the same 1088.

  What is stated of the staging buffers is therefore stated on the pixels inside the array only.  After the body the
  input buffer holds the image's tile where the array has it and, past the array's end, a word this proof picks
  (zero; nothing reads it); the output buffer holds what the body computes from that.  Every reduction of the body
  runs down the CHANNEL axis at a fixed pixel, so an output entry at a pixel inside the array reads input entries
  at that same pixel only, all inside the array: what the body writes there does not depend on the words past the
  end (`stored_cut_congr`).  That is what lets the buffers be handed back stated on the moved part alone.
-/
import proofs.«163687_g2000407525692535_pallasbulk_114_21_alg».proof.Proof.Gen.ReferenceIdeal.Frame
import proofs.«163687_g2000407525692535_pallasbulk_114_21_alg».proof.Proof.Gen.ReferenceIdeal.Skeleton
import proofs.«163687_g2000407525692535_pallasbulk_114_21_alg».proof.Proof.RefStored
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.ReferenceIdeal.NormFrame

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's accesses and what it leaves in the output's buffer -/

abbrev rTile : Rect S1x256x2048 := Rect.unit (s := S1x256x2048) ![0, 0, 0] S1x256x2048.size inb_S1x256x2048_S1x256x2048_0_0_0
abbrev rCol : Rect S256x1 := Rect.unit (s := S256x1) ![0, 0] S256x1.size inb_S256x1_S256x1_0_0

/-- The output's staging buffer after the body, from what the three input buffers hold: its one store, over the
    whole tile. -/
def stored (x0 : Vec F S1x256x2048 .f32) (x1 : Vec F S256x1 .f32) (x2 : Vec F S256x1 .f32) : Vec F S1x256x2048 .f32 :=
  View.canon [⟨rTile, k0_pay1 (View.ld x0 rTile) (View.ld x1 rCol) (View.ld x2 rCol)⟩]

/-- The one store covers the buffer. -/
theorem stored_cover (p0 : Vec F S1x256x2048 .f32) (y : S1x256x2048.Idx) :
    ∃ pc ∈ ([⟨rTile, p0⟩] : List (View.Piece (Elt F) S1x256x2048 .f32)), y ∈ pc.1.set :=
  View.cover_of_tiled [⟨rTile, p0⟩] S1x256x2048.size (by rfl) y

/-! ## The body's triple -/

set_option maxHeartbeats 1000000 in
/-- The body on whole staging memrefs — the inputs' at contents `x0`, `x1`, `x2`, the output's at anything — runs to
    the continuation with the inputs' as they were and the output's at `stored x0 x1 x2`. -/
theorem sound_kernel (c : Dev nD) (E : Set ℕ) (i : grid0.Coords) (arg2 : Memref sig .tc .vmem S1x256x2048 .f32) (harg2 : arg2.IsWhole) (arg3 : Memref sig .tc .vmem S256x1 .f32) (harg3 : arg3.IsWhole) (arg4 : Memref sig .tc .vmem S256x1 .f32) (harg4 : arg4.IsWhole) (arg5 : Memref sig .tc .vmem S1x256x2048 .f32) (harg5 : arg5.IsWhole)
    (x0 : Vec F S1x256x2048 .f32) (x1 : Vec F S256x1 .f32) (x2 : Vec F S256x1 .f32) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d)
        ∗ (iprop(owns (c : Thread nD τ) arg2 fullShare x0 ∗ owns (c : Thread nD τ) arg3 fullShare x1 ∗ owns (c : Thread nD τ) arg4 fullShare x2 ∗ owns (c : Thread nD τ) arg5 fullShare (stored x0 x1 x2)) -∗ K ⟨⟩))
      ⊢ wp frame (wpE (defs₀ (F := F)) Variants.none c none) E (cc0__norm_relu_kernel i arg2 harg2 arg3 harg3 arg4 harg4 arg5 harg5) K := by
  simp only [cc0__norm_relu_kernel_eq_skeleton]; unfold cc0__norm_relu_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (stored_cover _)

/-! ## The proof data -/

/-- The image tile at point `t` as the transfer in reads it: the part of the tile inside the array. -/
def tileIn (c : Dev nD) (t : Fin cfg0.N) : (win0_0.xblock (grid0.coords t)).Idx → Elt F .f32 := iblk m c 0 t

/-- The input buffer's contents after the body: the tile inside the array, and the zero word past its end. -/
def tileFull (c : Dev nD) (t : Fin cfg0.N) : S1x256x2048.Idx → Elt F .f32 :=
  win0_0.fill (grid0.coords t) (fun _ => Scalar.ofBits .f32 0#32) (tileIn m c t)

/-- The proof data of the one pipeline on core `c`: the arrays as the region finds them; after the body at point `t`
    the tile's buffer at `tileFull`, the scale's and the shift's at their columns, the output's at what the body
    stores from those; the invariant the untouched rest; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => tileFull m c t
    | ⟨1, _⟩ => iblk m c 1 t
    | ⟨2, _⟩ => iblk m c 2 t
    | ⟨3, _⟩ => stored (tileFull m c t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = tileFull m c t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = stored (tileFull m c t) (iblk m c 1 t) (iblk m c 2 t) := by dsimp only [dats]

/-- The tile's buffer when the body runs: just fetched (every point fetches it) — the tile inside the array, and
    past its end whatever `d` the buffer held. -/
theorem before0_0 (c : Dev nD) (t : Fin cfg0.N) (d) :
    (dats m 0 c).before 0 t d = win0_0.fill (grid0.coords t) d (tileIn m c t) := by
  unfold Dat.before; rw [if_pos (fetch0_0 t)]; rfl

/-- The scale's and the shift's buffers hold their columns at every point, fetched there or not. -/
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

end Cert.ReferenceIdeal.NormFrame

end
-- ==== Proof.RefObligation.lean ====
/-
  The reference's body meets the pipeline's obligation at every grid point, at the exact extended-real instance.

  The pipeline hands the body the image tile's buffer just fetched — the tile where the array has it, and past the
  array's end whatever the buffer held —, the scale and shift columns, and the output's buffer at anything; it wants
  them back with the tile's and the output's buffers stated on the pixels INSIDE the array only.  The body keeps the
  inputs and stores `stored`.  Two facts close the gap between what the body was given and what the proof data names:

  * the one store is over the whole buffer, so `stored` is the body's arithmetic itself (`stored_eq`);
  * an output entry at pixel `l` is the two-pass row of pixel `l`'s channel vector, and for `l` inside the array all
    256 entries of that vector are inside the array too (the tile is cut along the pixel axis only, alike for input
    and output): so on the moved part the output does not depend on the words past the array's end
    (`stored_cut_congr`).
-/
import proofs.«163687_g2000407525692535_pallasbulk_114_21_alg».proof.Proof.RefBody

set_option maxRecDepth 16384

noncomputable section

namespace Cert.ReferenceIdeal.NormFrame

open Cert.ReferenceIdeal Cert.ReferenceIdeal.Gen Cert.ReferenceIdeal.NormValue Cert.RowNorm
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-! ## The stored tile is the body's arithmetic, and on the moved part ignores the words past the array's end -/

/-- The one store is over the whole buffer and the loads read whole buffers: what is stored is the arithmetic of
    the buffers' contents. -/
theorem stored_eq (x0 : Vec Ideal S1x256x2048 .f32) (x1 x2 : Vec Ideal S256x1 .f32) :
    stored (F := Ideal) x0 x1 x2 = k0_pay1 (F := Ideal) x0 x1 x2 := by
  have hz3 : (![0, 0, 0] : Fin 3 → Nat) = fun _ => 0 := funext fun a => by fin_cases a <;> rfl
  have hz2 : (![0, 0] : Fin 2 → Nat) = fun _ => 0 := funext fun a => by fin_cases a <;> rfl
  unfold stored
  rw [View.canon_unit_zero hz3]
  simp only [View.ld_unit_zero (S := S1x256x2048) hz3, View.ld_unit_zero (S := S256x1) hz2]

/-- At every grid point the tile has at least one image, all 256 channels (the channel axis is never cut: its block
    index is the constant zero and the block is the array's whole extent), and is cut alike along the pixel axis
    for the input and the output (the two index maps are the same function of the point). -/
theorem tile_images_pos (i : grid0.Coords) : 0 < win0_0.xsize i 0 :=
  Pipeline.Clip.extent_pos (win0_0.hclip i 0) (by decide)
theorem tile_channels (i : grid0.Coords) : win0_0.xsize i 1 = 256 := rfl
theorem tile_pixels (i : grid0.Coords) : win0_3.xsize i 2 = win0_0.xsize i 2 := rfl

/-- Where the transfer moves an entry, the filled-out tile holds the array's entry whatever filled it out. -/
theorem tile_fill_congr {α : Type} (i : grid0.Coords) (d d' : S1x256x2048.Idx → α) (g : (win0_0.xblock i).Idx → α)
    (y : S1x256x2048.Idx) (h : win0_0.moved i y = true) : win0_0.fill i d g y = win0_0.fill i d' g y := by
  unfold Window.fill; rw [dif_pos h, dif_pos h]

/-- At an entry whose pixel the transfer moves, the stored tile does not depend on what filled out the input tile:
    the entry is the two-pass row of that pixel's channel vector, all of whose entries the transfer moved. -/
theorem stored_congr_at (i : grid0.Coords) (d d' : S1x256x2048.Idx → Elt Ideal .f32)
    (g : (win0_0.xblock i).Idx → Elt Ideal .f32) (x1 x2 : Vec Ideal S256x1 .f32) (y : S1x256x2048.Idx)
    (hy : (y 2).val < win0_0.xsize i 2) :
    stored (F := Ideal) (win0_0.fill i d g) x1 x2 y = stored (F := Ideal) (win0_0.fill i d' g) x1 x2 y := by
  obtain ⟨u, ch, l, rfl⟩ : ∃ (u : Fin 1) (ch : Fin 256) (l : Fin 2048), y = ix3 u ch l := ⟨y 0, y 1, y 2, eq_ix3 y⟩
  have hl : l.val < win0_0.xsize i 2 := hy
  rw [stored_eq, stored_eq, stored_apply, stored_apply]
  have hrow : (fun k : Fin 256 => win0_0.fill i d g (ix3 (0 : Fin 1) k l))
      = fun k : Fin 256 => win0_0.fill i d' g (ix3 (0 : Fin 1) k l) := by
    funext k
    refine tile_fill_congr i d d' g _ ((win0_0.moved_iff i _).mpr fun a => ?_)
    match a with
    | ⟨0, _⟩ => exact tile_images_pos i
    | ⟨1, _⟩ => exact lt_of_lt_of_eq k.isLt (tile_channels i).symm
    | ⟨2, _⟩ => exact hl
  rw [hrow]

/-- On the part the transfer out moves, the stored tile does not depend on what filled out the input tile. -/
theorem stored_cut_congr (t : Fin cfg0.N) (d d' : S1x256x2048.Idx → Elt Ideal .f32)
    (g : (win0_0.xblock (grid0.coords t)).Idx → Elt Ideal .f32) (x1 x2 : Vec Ideal S256x1 .f32) :
    win0_3.cut (grid0.coords t) (stored (F := Ideal) (win0_0.fill (grid0.coords t) d g) x1 x2)
      = win0_3.cut (grid0.coords t) (stored (F := Ideal) (win0_0.fill (grid0.coords t) d' g) x1 x2) :=
  funext fun j => stored_congr_at (grid0.coords t) d d' g x1 x2 (win0_3.xinj (grid0.coords t) j)
    (lt_of_lt_of_eq (j 2).isLt (tile_pixels (grid0.coords t)))

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns: the tile's and the output's buffers stated on the part the transfers move. -/
def bodyPost (c : Dev nD) (t : Fin cfg0.N) : sProp 𝕄 :=
  iprop((dats m 0 c).Φ t.succ ∗ (dats m 0 c).owesAt () t.succ
    ∗ (∃ d, owns (c : Thread nD τ) (st0_0 t) fullShare (win0_0.fill (grid0.coords t) d (win0_0.cut (grid0.coords t) ((dats m 0 c).after 0 t))))
    ∗ owns (c : Thread nD τ) (st0_1 t) fullShare ((dats m 0 c).after 1 t)
    ∗ owns (c : Thread nD τ) (st0_2 t) fullShare ((dats m 0 c).after 2 t)
    ∗ (∃ d, owns (c : Thread nD τ) (st0_3 t) fullShare (win0_3.fill (grid0.coords t) d (win0_3.cut (grid0.coords t) ((dats m 0 c).after 3 t)))))

theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  rw [before0_0 m c t d0, before0_1 m c t d1, before0_2 m c t d2]
  iapply (sound_kernel c Set.univ (grid0.coords t) _ _ _ _ _ _ _ _ (win0_0.fill (grid0.coords t) d0 (tileIn m c t)) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]
  · iexists d0
    rw [show win0_0.cut (grid0.coords t) (tileFull m c t) = tileIn m c t from win0_0.cut_fill _ _ _]
    iexact H0
  isplitl [H1]; · iexact H1
  isplitl [H2]; · iexact H2
  · iexists stored (F := Ideal) (win0_0.fill (grid0.coords t) d0 (tileIn m c t)) (iblk m c 1 t) (iblk m c 2 t)
    have hkeep : win0_3.fill (grid0.coords t)
          (stored (F := Ideal) (win0_0.fill (grid0.coords t) d0 (tileIn m c t)) (iblk m c 1 t) (iblk m c 2 t))
          (win0_3.cut (grid0.coords t) (stored (F := Ideal) (tileFull m c t) (iblk m c 1 t) (iblk m c 2 t)))
        = stored (F := Ideal) (win0_0.fill (grid0.coords t) d0 (tileIn m c t)) (iblk m c 1 t) (iblk m c 2 t) :=
      win0_3.fill_congr_cut (grid0.coords t)
        (stored_cut_congr t d0 (fun _ => Scalar.ofBits (F := Ideal) .f32 0#32) (tileIn m c t) (iblk m c 1 t) (iblk m c 2 t))
    change _ ⊢ owns (c : Thread nD τ) (st0_3 t) fullShare (win0_3.fill (grid0.coords t)
          (stored (F := Ideal) (win0_0.fill (grid0.coords t) d0 (tileIn m c t)) (iblk m c 1 t) (iblk m c 2 t))
          (win0_3.cut (grid0.coords t) (stored (F := Ideal) (tileFull m c t) (iblk m c 1 t) (iblk m c 2 t))))
    rw [hkeep]
    try iexact H3

/-- The pipeline's body obligation, at every point. -/
theorem body_obligation (c : Dev nD) : BodyObligationLoose (dats (F := Ideal) m 0 c) (defs₀ (F := Ideal)) Variants.none () Set.univ := fun t => by
  rw [bigSep_W0, bigSep_W0]
  exact sound_body m c t

end Cert.ReferenceIdeal.NormFrame

end
-- ==== Proof.RefRun.lean ====
/-
  The reference's run: with the body obligation met at every grid point, the pipeline's frame theorem gives that every
  weakly fair execution of the program terminates, every array the region stages ends at what the write-backs leave
  in it, and every other buffer is as the host lines after the region leave it.  The program's frame — the three
  argument arrays end as they began — is that post read at the arguments.
-/
import proofs.«163687_g2000407525692535_pallasbulk_114_21_alg».proof.Proof.RefObligation

set_option maxRecDepth 16384

noncomputable section

namespace Cert.ReferenceIdeal.NormFrame

open Cert.ReferenceIdeal Cert.ReferenceIdeal.Gen
open Idealize.ShloMosaic Idealize.ShloMosaic.TcCoe
open Idealize.SL Idealize.SL.Sem
open Idealize.ShloMosaic.Pipeline (Dat Cfg Window)

variable (m : (ℓ : Loc nD τ sig) → Buf (Elt Ideal) ℓ) (ρ : Dev nD → PrngReg)

set_option backward.isDefEq.respectTransparency.types false in
/-- Every weakly fair execution terminates; the staged arrays end at the proof data's final contents and every other
    unscoped buffer as the lines after the region leave it. -/
theorem run_main : θ_run defs (onTc (τ := τ) (main (F := Ideal))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => body_obligation m c) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The argument arrays end as they began. -/
theorem frame : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.ReferenceIdeal.NormFrame

end
-- ==== Proof.RefBlocks.lean ====
/-
  From the tiles to the whole normalised array.

  The region writes back, at each of its 64 grid points, the part of the output tile that lies inside the array.  Each
  entry written is the two-pass row of one pixel's channel vector, read off the input tile; and the input tile's
  entries inside the array are the array's own, at the tile's offset.  So what point `t` writes back is tile `t` of ONE
  function of the whole arrays, `normed`: at (image `n`, channel `c`, pixel `p`) the two-pass row of the channel vector
  `k ↦ A0 (n, k, p)` at `c`, with the scale and shift columns.  The tiles — image `n`, pixels 0‥2047 and 2048‥3135 —
  cover the array, so the array ends holding `normed`.
-/
import proofs.«163687_g2000407525692535_pallasbulk_114_21_alg».proof.Proof.RefObligation
import Idealize.ShloMosaic.Lib.Pipeline.Value

set_option maxRecDepth 16384

noncomputable section

namespace Cert.ReferenceIdeal.NormFrame

open Cert.ReferenceIdeal Cert.ReferenceIdeal.Gen Cert.ReferenceIdeal.NormValue Cert.RowNorm
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-- The normalised array as one function of the arrays the region finds: at (image, channel, pixel) the two-pass row
    of that pixel's channel vector, with the scale and shift columns. -/
def normed (A0 : S32x256x3136.Idx → Elt Ideal .f32) (A1 A2 : S256x1.Idx → Elt Ideal .f32) : S32x256x3136.Idx → Elt Ideal .f32 :=
  fun i => centredRow (fun k => A0 (ix3 (n0 := 32) (n1 := 256) (n2 := 3136) (i 0) k (i 2)))
    (fun k => A1 (ix2 (n0 := 256) (n1 := 1) k 0)) (fun k => A2 (ix2 (n0 := 256) (n1 := 1) k 0)) (i 1)

theorem normed_apply (A0 : S32x256x3136.Idx → Elt Ideal .f32) (A1 A2 : S256x1.Idx → Elt Ideal .f32) (n : Fin 32) (ch : Fin 256) (p : Fin 3136) :
    normed A0 A1 A2 (ix3 n ch p) = centredRow (fun k => A0 (ix3 n k p)) (fun k => A1 (ix2 k (0 : Fin 1))) (fun k => A2 (ix2 k (0 : Fin 1))) ch := rfl

/-! ## The block index maps -/

/-- The input's and the output's tiles sit at the same place: one index map. -/
theorem index_in_eq_out (t : Fin cfg0.N) (a : Fin 3) : win0_0.index t a = win0_3.index t a := rfl
/-- Along the channels the tile is the whole axis: block index zero. -/
theorem index_channels (t : Fin cfg0.N) : win0_3.index t 1 = 0 := rfl
/-- The scale and shift columns are whole arrays: block index zero on both axes. -/
theorem index_scale (t : Fin cfg0.N) (a : Fin 2) : win0_1.index t a = 0 := by
  match a with | ⟨0, _⟩ => rfl | ⟨1, _⟩ => rfl
theorem index_shift (t : Fin cfg0.N) (a : Fin 2) : win0_2.index t a = 0 := by
  match a with | ⟨0, _⟩ => rfl | ⟨1, _⟩ => rfl

/-! ## The buffers' entries as entries of the arrays -/

/-- The input tile's buffer at a pixel inside the array holds the array's entry at the tile's offset. -/
theorem tileFull_apply (c : Dev nD) (t : Fin cfg0.N) (k : Fin 256) (l : Fin 2048) (hl : l.val < win0_0.xsize (grid0.coords t) 2)
    (e0 : Fin 32) (e2 : Fin 3136) (h0 : e0.val = win0_3.index t 0) (h2 : e2.val = win0_3.index t 2 * 2048 + l.val) :
    tileFull m c t (ix3 (0 : Fin 1) k l) = V m c main_v2 (ix3 e0 k e2) := by
  have hmv : win0_0.moved (grid0.coords t) (ix3 (0 : Fin 1) k l) = true := (win0_0.moved_iff _ _).mpr fun a => by
    match a with
    | ⟨0, _⟩ => exact tile_images_pos _
    | ⟨1, _⟩ => exact lt_of_lt_of_eq k.isLt (tile_channels _).symm
    | ⟨2, _⟩ => exact hl
  unfold tileFull Window.fill
  rw [dif_pos hmv]
  show V m c main_v2 (((cfg0.win 0).blk t).view.emb _) = _
  refine congrArg (V m c main_v2) (funext fun a => Fin.ext ?_)
  match a with
  | ⟨0, _⟩ => show win0_0.index t 0 * 1 + 1 * 0 = e0.val; rw [index_in_eq_out]; omega
  | ⟨1, _⟩ => show win0_0.index t 1 * 256 + 1 * k.val = k.val; rw [index_in_eq_out, index_channels]; omega
  | ⟨2, _⟩ => show win0_0.index t 2 * 2048 + 1 * l.val = e2.val; rw [index_in_eq_out]; omega

/-- The scale's buffer holds the scale column. -/
theorem scale_apply (c : Dev nD) (t : Fin cfg0.N) (k : Fin 256) :
    iblk m c 1 t (ix2 k (0 : Fin 1)) = V m c main_v3 (ix2 k (0 : Fin 1)) := by
  show V m c main_v3 (((cfg0.win 1).blk t).view.emb (ix2 k (0 : Fin 1))) = _
  refine congrArg (V m c main_v3) (funext fun a => Fin.ext ?_)
  match a with
  | ⟨0, _⟩ => show win0_1.index t 0 * 256 + 1 * k.val = k.val; rw [index_scale]; omega
  | ⟨1, _⟩ => show win0_1.index t 1 * 1 + 1 * 0 = 0; rw [index_scale]
/-- The shift's buffer holds the shift column. -/
theorem shift_apply (c : Dev nD) (t : Fin cfg0.N) (k : Fin 256) :
    iblk m c 2 t (ix2 k (0 : Fin 1)) = V m c main_v4 (ix2 k (0 : Fin 1)) := by
  show V m c main_v4 (((cfg0.win 2).blk t).view.emb (ix2 k (0 : Fin 1))) = _
  refine congrArg (V m c main_v4) (funext fun a => Fin.ext ?_)
  match a with
  | ⟨0, _⟩ => show win0_2.index t 0 * 256 + 1 * k.val = k.val; rw [index_shift]; omega
  | ⟨1, _⟩ => show win0_2.index t 1 * 1 + 1 * 0 = 0; rw [index_shift]

/-! ## What a point writes back -/

/-- The stored tile at a pixel inside the array is `normed` at the tile's offset. -/
theorem stored_at (c : Dev nD) (t : Fin cfg0.N) (u : Fin 1) (ch : Fin 256) (l : Fin 2048) (e0 : Fin 32) (e1 : Fin 256) (e2 : Fin 3136)
    (hl : l.val < win0_0.xsize (grid0.coords t) 2)
    (h0 : e0.val = win0_3.index t 0) (h1 : e1.val = ch.val) (h2 : e2.val = win0_3.index t 2 * 2048 + l.val) :
    stored (F := Ideal) (tileFull m c t) (iblk m c 1 t) (iblk m c 2 t) (ix3 u ch l)
      = normed (V m c main_v2) (V m c main_v3) (V m c main_v4) (ix3 e0 e1 e2) := by
  rw [stored_eq, stored_apply, normed_apply]
  have hrow : (fun k : Fin 256 => tileFull m c t (ix3 (0 : Fin 1) k l)) = fun k : Fin 256 => V m c main_v2 (ix3 e0 k e2) :=
    funext fun k => tileFull_apply m c t k l hl e0 e2 h0 h2
  have hscale : (fun k : Fin 256 => iblk m c 1 t (ix2 k (0 : Fin 1))) = fun k : Fin 256 => V m c main_v3 (ix2 k (0 : Fin 1)) :=
    funext fun k => scale_apply m c t k
  have hshift : (fun k : Fin 256 => iblk m c 2 t (ix2 k (0 : Fin 1))) = fun k : Fin 256 => V m c main_v4 (ix2 k (0 : Fin 1)) :=
    funext fun k => shift_apply m c t k
  have hch : ch = e1 := Fin.ext h1.symm
  rw [hrow, hscale, hshift, hch]

/-- WHAT POINT `t` WRITES BACK is tile `t` of `normed` of the arrays the region finds. -/
theorem flushed_eq (c : Dev nD) (t : Fin cfg0.N) :
    (dats m 0 c).flushed 3 t = ((cfg0.win 3).blk t).view.read (Elt Ideal) (normed (V m c main_v2) (V m c main_v3) (V m c main_v4)) := by
  show (cfg0.win 3).cut (grid0.coords t) ((dats m 0 c).after 3 t) = _
  rw [after0_3]
  funext j
  have hj0 : (j 0).val < win0_3.xsize (grid0.coords t) 0 := (j 0).isLt
  have hj1 : (j 1).val < win0_3.xsize (grid0.coords t) 1 := (j 1).isLt
  have hj2 : (j 2).val < win0_3.xsize (grid0.coords t) 2 := (j 2).isLt
  have hx0 : win0_3.xsize (grid0.coords t) 0 ≤ 1 := win0_3.xsize_le (grid0.coords t) 0
  have hx1 : win0_3.xsize (grid0.coords t) 1 ≤ 256 := win0_3.xsize_le (grid0.coords t) 1
  have hx2 : win0_3.xsize (grid0.coords t) 2 ≤ 2048 := win0_3.xsize_le (grid0.coords t) 2
  have hi0 : win0_3.index t 0 * 1 + 1 * (j 0).val < 32 := (((cfg0.win 3).blk t).view.emb j 0).isLt
  have hi2 : win0_3.index t 2 * 2048 + 1 * (j 2).val < 3136 := (((cfg0.win 3).blk t).view.emb j 2).isLt
  have hy : (win0_3.xinj (grid0.coords t) j : S1x256x2048.Idx) = ix3 ⟨(j 0).val, by omega⟩ ⟨(j 1).val, by omega⟩ ⟨(j 2).val, by omega⟩ :=
    funext fun a => Fin.ext (by match a with | ⟨0, _⟩ => rfl | ⟨1, _⟩ => rfl | ⟨2, _⟩ => rfl)
  have he : (((cfg0.win 3).blk t).view.emb j : S32x256x3136.Idx)
      = ix3 ⟨win0_3.index t 0, by omega⟩ ⟨(j 1).val, by omega⟩ ⟨win0_3.index t 2 * 2048 + (j 2).val, by omega⟩ :=
    funext fun a => Fin.ext (by
      match a with
      | ⟨0, _⟩ => show win0_3.index t 0 * 1 + 1 * (j 0).val = win0_3.index t 0; omega
      | ⟨1, _⟩ => show win0_3.index t 1 * 256 + 1 * (j 1).val = (j 1).val; rw [index_channels]; omega
      | ⟨2, _⟩ => show win0_3.index t 2 * 2048 + 1 * (j 2).val = win0_3.index t 2 * 2048 + (j 2).val; omega)
  show stored (F := Ideal) (tileFull m c t) (iblk m c 1 t) (iblk m c 2 t) (win0_3.xinj (grid0.coords t) j)
    = normed (V m c main_v2) (V m c main_v3) (V m c main_v4) (((cfg0.win 3).blk t).view.emb j)
  rw [hy, he]
  exact stored_at m c t _ _ _ _ _ _ (lt_of_lt_of_eq hj2 (tile_pixels _)) rfl rfl rfl

/-! ## The tiles cover the array -/

/-- An index of the array is in point `t`'s tile iff each coordinate is in the tile's range on its axis. -/
theorem mem_blk (t : Fin cfg0.N) (i : S32x256x3136.Idx) :
    i ∈ ((cfg0.win 3).blk t).view.set ↔ ∀ a : Fin 3, win0_3.index t a * S1x256x2048.size a ≤ (i a).val
      ∧ (i a).val < win0_3.index t a * S1x256x2048.size a + win0_3.xsize (grid0.coords t) a := by
  show i ∈ ((View.whole main_v5).slice (win0_3.rect t)).set ↔ _
  rw [View.set_slice_whole, Rect.mem_set_unit]
  exact Iff.rfl

/-- Every (image, pixel tile) pair is SOME grid point's. -/
theorem idx_onto : ∀ (q0 : Fin 32) (q2 : Fin 2), ∃ t : Fin cfg0.N, win0_3.index t = ![q0.val, 0, q2.val] :=
  (by decide +kernel : ∀ (q0 : Fin 32) (q2 : Fin 2), ∃ t : Fin grid0.N, win0_3.index t = ![q0.val, 0, q2.val])

/-- How many pixels of the tile lie inside the array: all 2048 of the first tile, 1088 of the second. -/
theorem pixels_extent (t : Fin cfg0.N) :
    win0_3.xsize (grid0.coords t) 2 = (Pipeline.Clip.of (win0_3.index t 2) 2048 3136).extent 2048 := rfl

theorem out_images_pos (i : grid0.Coords) : 0 < win0_3.xsize i 0 := Pipeline.Clip.extent_pos (win0_3.hclip i 0) (by decide)
theorem out_channels (i : grid0.Coords) : win0_3.xsize i 1 = 256 := rfl

/-- Every index of the array is in some writing point's tile. -/
theorem cover (i : S32x256x3136.Idx) : ∃ t : Fin cfg0.N, (cfg0.win 3).flush t = true ∧ i ∈ ((cfg0.win 3).blk t).view.set := by
  have hi0 : (i 0).val < 32 := (i 0).isLt
  have hi1 : (i 1).val < 256 := (i 1).isLt
  have hi2 : (i 2).val < 3136 := (i 2).isLt
  obtain ⟨t, ht⟩ := idx_onto ⟨(i 0).val, hi0⟩ ⟨(i 2).val / 2048, by omega⟩
  have q0 : win0_3.index t 0 = (i 0).val := congrFun ht 0
  have q1 : win0_3.index t 1 = 0 := congrFun ht 1
  have q2 : win0_3.index t 2 = (i 2).val / 2048 := congrFun ht 2
  refine ⟨t, flush0_3 t, (mem_blk t i).mpr fun a => ?_⟩
  match a with
  | ⟨0, _⟩ =>
    have hp := out_images_pos (grid0.coords t)
    show win0_3.index t 0 * 1 ≤ (i 0).val ∧ (i 0).val < win0_3.index t 0 * 1 + win0_3.xsize (grid0.coords t) 0
    omega
  | ⟨1, _⟩ =>
    show win0_3.index t 1 * 256 ≤ (i 1).val ∧ (i 1).val < win0_3.index t 1 * 256 + win0_3.xsize (grid0.coords t) 1
    rw [out_channels]; omega
  | ⟨2, _⟩ =>
    show win0_3.index t 2 * 2048 ≤ (i 2).val ∧ (i 2).val < win0_3.index t 2 * 2048 + win0_3.xsize (grid0.coords t) 2
    rw [pixels_extent, q2]
    unfold Pipeline.Clip.of
    split
    · show _ ∧ _ < _ + 2048; omega
    · show _ ∧ _ < _ + (3136 - (i 2).val / 2048 * 2048); omega

/-- THE ARRAY after the run: `normed` of the arrays the region finds. -/
theorem final (c : Dev nD) : (dats m 0 c).arrAt 3 cfg0.N = normed (V m c main_v2) (V m c main_v3) (V m c main_v4) :=
  (dats m 0 c).arrAt_eq_of_cover 3 _ (fun t _ => flushed_eq m c t) cover

end Cert.ReferenceIdeal.NormFrame

end
-- ==== Proof.RefTail.lean ====
/-
  The reference's result as one function of its arguments.

  Before the region the host lines flatten the feature map's two pixel axes into one ([32,256,56,56] to [32,256,3136],
  pixel `p = 56·h + w`) and stand the scale and the shift up as [256,1] columns; after it one line unflattens the
  normalised array.  Flattening and unflattening read the same entry in row-major order, so the result at
  (image `n`, channel `c`, row `h`, column `w`) is the two-pass row of the channel vector `k ↦ x (n, k, h, w)` at `c`:
  `centredMap` of the three arguments.
-/
import proofs.«163687_g2000407525692535_pallasbulk_114_21_alg».proof.Proof.RefRun
import proofs.«163687_g2000407525692535_pallasbulk_114_21_alg».proof.Proof.RefBlocks
import Idealize.ShloMosaic.Lib.StableHlo.Run
import Idealize.ShloMosaic.Lib.ValueIdx
import Idealize.ShloMosaic.Lib.Pipeline.Value

set_option maxRecDepth 16384

noncomputable section

namespace Cert.ReferenceIdeal.NormFrame

open Cert.ReferenceIdeal Cert.ReferenceIdeal.Gen Cert.RowNorm
open Idealize.ShloMosaic Idealize.ShloMosaic.TcCoe Idealize.ShloMosaic.ValueIdx Idealize.ShloMosaic.Pipeline
open Idealize.SL Idealize.SL.Sem

variable (m : (ℓ : Loc nD τ sig) → Buf (Elt Ideal) ℓ) (ρ : Dev nD → PrngReg)

/-! ## The reshapes, read at an entry -/

/-- The flattened feature map at (image, channel, pixel `56·h + w`) is the feature map at (image, channel, `h`, `w`). -/
theorem flat_apply {α : Type} (X : S32x256x56x56.Idx → α) (n : Fin 32) (k : Fin 256) (h w : Fin 56) (p : Fin 3136)
    (hp : p.val = h.val * 56 + w.val) :
    shapeCast S32x256x3136 X shapeCasts_S32x256x56x56_S32x256x3136 (ix3 n k p) = X (ix4 n k h w) :=
  shapeCast_apply X _ _ _ (by
    rw [Shape.rowMajor_val_four, Shape.rowMajor_val_three]
    show ((n.val * 256 + k.val) * 56 + h.val) * 56 + w.val = (n.val * 256 + k.val) * 3136 + p.val
    omega)

/-- The unflattened array at (image, channel, `h`, `w`) is the array at (image, channel, pixel `56·h + w`). -/
theorem unflat_apply {α : Type} (Y : S32x256x3136.Idx → α) (n : Fin 32) (k : Fin 256) (h w : Fin 56) (p : Fin 3136)
    (hp : p.val = h.val * 56 + w.val) :
    shapeCast S32x256x56x56 Y shapeCasts_S32x256x3136_S32x256x56x56 (ix4 n k h w) = Y (ix3 n k p) :=
  shapeCast_apply Y _ _ _ (by
    rw [Shape.rowMajor_val_four, Shape.rowMajor_val_three]
    show (n.val * 256 + k.val) * 3136 + p.val = ((n.val * 256 + k.val) * 56 + h.val) * 56 + w.val
    omega)

/-- A vector stood up as a column reads the vector's entry. -/
theorem column_apply {α : Type} (W : S256.Idx → α) (k : Fin 256) (z : Fin 1) :
    shapeCast S256x1 W shapeCasts_S256_S256x1 (ix2 k z) = W (ix1 k) :=
  shapeCast_apply W _ _ _ (by
    rw [Shape.rowMajor_val_one, Shape.rowMajor_val_two]
    show k.val = k.val * 1 + z.val
    omega)

/-- Flatten, normalise pixel by pixel, unflatten: the two-pass map of the feature map. -/
theorem unflat_normed_flat (X : S32x256x56x56.Idx → Elt Ideal .f32) (W B : S256.Idx → Elt Ideal .f32) :
    shapeCast S32x256x56x56 (normed (shapeCast S32x256x3136 X shapeCasts_S32x256x56x56_S32x256x3136)
        (shapeCast S256x1 W shapeCasts_S256_S256x1) (shapeCast S256x1 B shapeCasts_S256_S256x1)) shapeCasts_S32x256x3136_S32x256x56x56
      = centredMap X W B := by
  funext i
  obtain ⟨n, ch, h, w, rfl⟩ : ∃ (n : Fin 32) (ch : Fin 256) (h w : Fin 56), i = ix4 n ch h w := ⟨i 0, i 1, i 2, i 3, eq_ix4 i⟩
  have hlt : h.val * 56 + w.val < 3136 := by have := h.isLt; have := w.isLt; omega
  rw [unflat_apply _ n ch h w ⟨h.val * 56 + w.val, hlt⟩ rfl, normed_apply]
  have hrow : (fun k : Fin 256 => shapeCast S32x256x3136 X shapeCasts_S32x256x56x56_S32x256x3136 (ix3 n k ⟨h.val * 56 + w.val, hlt⟩))
      = fun k : Fin 256 => X (ix4 n k h w) := funext fun k => flat_apply X n k h w _ rfl
  have hW : (fun k : Fin 256 => shapeCast S256x1 W shapeCasts_S256_S256x1 (ix2 k (0 : Fin 1))) = fun k : Fin 256 => W (ix1 k) :=
    funext fun k => column_apply W k 0
  have hB : (fun k : Fin 256 => shapeCast S256x1 B shapeCasts_S256_S256x1 (ix2 k (0 : Fin 1))) = fun k : Fin 256 => B (ix1 k) :=
    funext fun k => column_apply B k 0
  rw [hrow, hW, hB]
  rfl

/-! ## The arrays the region finds, and the result after the last line -/

theorem entry_map (c : Dev nD) : (V m c main_v2 : S32x256x3136.Idx → Elt Ideal .f32)
    = shapeCast S32x256x3136 (m ((c : Thread nD τ).loc main_arg0)) shapeCasts_S32x256x56x56_S32x256x3136 := by
  show StableHlo.after hostOps0 (fun b => m (c, b)) (Proc.devRef .tc main_v2) = _
  after_results; rfl
theorem entry_scale (c : Dev nD) : (V m c main_v3 : S256x1.Idx → Elt Ideal .f32)
    = shapeCast S256x1 (m ((c : Thread nD τ).loc main_arg1)) shapeCasts_S256_S256x1 := by
  show StableHlo.after hostOps0 (fun b => m (c, b)) (Proc.devRef .tc main_v3) = _
  after_results; rfl
theorem entry_shift (c : Dev nD) : (V m c main_v4 : S256x1.Idx → Elt Ideal .f32)
    = shapeCast S256x1 (m ((c : Thread nD τ).loc main_arg2)) shapeCasts_S256_S256x1 := by
  show StableHlo.after hostOps0 (fun b => m (c, b)) (Proc.devRef .tc main_v4) = _
  after_results; rfl

/-- The result buffer after the line that follows the region: the region's output array, unflattened. -/
theorem tail_result (c : Dev nD) : (Pipeline.afterTail₀ cfgs (dats m) 0 (V0 m) [hostOps1] c main_v6 : S32x256x56x56.Idx → Elt Ideal .f32)
    = shapeCast S32x256x56x56 ((dats m 0 c).arrAt 3 cfg0.N) shapeCasts_S32x256x3136_S32x256x56x56 := by
  unfold Pipeline.afterTail₀
  show StableHlo.after hostOps1 _ (Proc.devRef .tc main_v6) = _
  after_results
  rw [Pipeline.withArrays_arr spec0 launch0.win.arr_inj c _ _ 3]
  rfl

/-- THE RESULT: the two-pass map of the three arguments. -/
theorem result_eq (c : Dev nD) : (Pipeline.afterTail₀ cfgs (dats m) 0 (V0 m) [hostOps1] c main_v6 : S32x256x56x56.Idx → Elt Ideal .f32)
    = centredMap (m ((c : Thread nD τ).loc main_arg0)) (m ((c : Thread nD τ).loc main_arg1)) (m ((c : Thread nD τ).loc main_arg2)) := by
  rw [tail_result, final, entry_map, entry_scale, entry_shift, unflat_normed_flat]

/-- The reference's run: every weakly fair execution terminates with the result at the two-pass map of the arguments
    and the arguments as they began. -/
theorem ref_run : θ_run defs (onTc (τ := τ) (main (F := Ideal))) ⟨m, fun _ => 0, ρ⟩ (fun r => ∀ c : Dev nD,
      r.2.mem ((c.tc : Thread nD τ).loc main_v6)
        = centredMap (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v6 (Pipeline.mem_restRefs_of main_v6 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.ReferenceIdeal.NormFrame

end
-- ==== Proof.Finite.lean ====
/-
  Under the precondition every entry of the feature map is a real number.

  The precondition is a conjunction of three tests, each "every entry of |argument| is below +∞"; the first is over
  the feature map.  A conjunction of one-bit words that is 1 has both words 1; a reduction by "and" over all axes that
  is 1 met a 1 at every entry; the entry's bit is the comparison |x| < +∞ on the extended reals, and an extended real
  whose absolute value max x (−x) is below +∞ is neither −∞ nor +∞.
-/
import proofs.«163687_g2000407525692535_pallasbulk_114_21_alg».proof.Defs
import proofs.«163687_g2000407525692535_pallasbulk_114_21_alg».proof.Proof.RowNorm
import Idealize.ShloMosaic.Lib.ReduceAll
import Idealize.ShloMosaic.Lib.ValueIdx

noncomputable section

namespace Cert.Finite

open Idealize.ShloMosaic Idealize.SL.Sem

instance : Subsingleton Cert.Pre_finite_inputs.S_.Idx := ⟨fun a b => funext fun d => d.elim0⟩

/-- The pattern `0x7F800000` is +∞. -/
theorem ofBits_inf : Ideal.ofBits .f32 0x7F800000#32 = (⊤ : EReal) := by
  simp [Ideal.ofBits, Ideal.ieee]

/-- An extended real whose absolute value is below +∞ is a real number. -/
theorem real_of_abs_lt_top (x : EReal) (h : max x (-x) < (⊤ : EReal)) : ∃ r : ℝ, x = (r : EReal) := by
  induction x using EReal.rec with
  | bot => exact absurd h (by simp)
  | coe r => exact ⟨r, rfl⟩
  | top => exact absurd h (by simp)

/-- A one-bit comparison "less than" that is 1 says the left side is less. -/
theorem lt_of_cmp_olt (x y : EReal) (h : Ideal.cmp .olt x y = 1#1) : x < y := by
  by_contra hxy
  have h0 : Ideal.cmp .olt x y = 0#1 := by
    show BitVec.ofBool (decide (x < y)) = 0#1
    rw [decide_eq_false hxy]
    rfl
  rw [h0] at h
  exact absurd h (by decide)

/-- Under the precondition, every entry of the feature map is a real number. -/
theorem x_real [hPre_finite_inputs : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) (i : Cert.RowNorm.SX.Idx) :
    ∃ r : ℝ, (m ((c.tc : Thread Cert.KernelIdeal.nD Cert.KernelIdeal.τ).loc Cert.KernelIdeal.main_arg0) : Cert.RowNorm.SX.Idx → EReal) i = (r : EReal) := by
  have h0 := congrFun (h c) ValueIdx.ix0
  dsimp only [Cert.Pre_finite_inputs.fn] at h0
  -- the conjunction of the three tests, then the first of them
  obtain ⟨h1, -⟩ := IntOp.andi_eq_one.1 h0
  obtain ⟨hx, -⟩ := IntOp.andi_eq_one.1 h1
  -- the test over the feature map: every entry's bit is 1
  have hp := Host.reduce_andi_all _ _ _ _ ValueIdx.ix0 hx i
  -- the entry's bit is the comparison of its absolute value with +∞
  have hlt := lt_of_cmp_olt _ _ hp
  exact real_of_abs_lt_top _ (hlt.trans_eq ofBits_inf)

end Cert.Finite

end
-- ==== Proof.lean ====
/-
  The certificate: a per-pixel layer normalisation over 256 channels, scaled, shifted and clamped at zero, computed in
  two arrangements.

  The kernel transposes the feature map so that the channels are the minor axis, and at each (image, pixel) takes the
  mean and the second moment of the 256 channel values as sums with the factor 1/256 inside (two products with a
  constant matrix), the variance as the second moment less the squared mean.  The reference keeps the layout, tiles the
  pixels, and takes the mean as the sum over 256 and the variance as the mean of the squared deviations.  Both then
  form ((x − mean) · rsqrt (variance + ε)) · scale + shift and clamp at zero, with the same ε and in the same order.

  * Each program runs, faults nowhere and leaves its arguments as they were: the kernel's two programs by their
    generated frames; the reference's by the pipeline's frame theorem under the body obligation proved for its
    region, whose second pixel tile overhangs the array.
  * The idealised kernel is the kernel's own text read over the extended reals: nothing was rewritten.
  * The two idealised programs return the same array: the kernel's result is the one-pass map of the arguments
    (for all extended-real inputs), the reference's the two-pass map, and on a feature map of REAL entries — which
    is what the precondition gives — the two maps agree by the identity E[(x − μ)²] = E[x²] − μ².
-/
import proofs.«163687_g2000407525692535_pallasbulk_114_21_alg».proof.Defs
import proofs.«163687_g2000407525692535_pallasbulk_114_21_alg».proof.Proof.Gen.Kernel
import proofs.«163687_g2000407525692535_pallasbulk_114_21_alg».proof.Proof.Gen.Kernel.Frame
import proofs.«163687_g2000407525692535_pallasbulk_114_21_alg».proof.Proof.Gen.KernelIdeal
import proofs.«163687_g2000407525692535_pallasbulk_114_21_alg».proof.Proof.Gen.KernelIdeal.Frame
import proofs.«163687_g2000407525692535_pallasbulk_114_21_alg».proof.Proof.Gen.ReferenceIdeal
import proofs.«163687_g2000407525692535_pallasbulk_114_21_alg».proof.Proof.Gen.Pre_finite_inputs
import proofs.«163687_g2000407525692535_pallasbulk_114_21_alg».proof.Proof.RowNorm
import proofs.«163687_g2000407525692535_pallasbulk_114_21_alg».proof.Proof.KernelRun
import proofs.«163687_g2000407525692535_pallasbulk_114_21_alg».proof.Proof.RefTail
import proofs.«163687_g2000407525692535_pallasbulk_114_21_alg».proof.Proof.Finite
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ,
    fun m ρ _ => Cert.KernelIdeal.Gen.frame m ρ,
    fun m ρ _ => Cert.ReferenceIdeal.NormFrame.frame m ρ,
    trivial,
    fun m ρ m' ρ' hpre hagree =>
      ⟨fun c => Cert.RowNorm.foldedMap (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2)),
        Cert.KernelIdeal.NormValue.kernel_run m ρ,
        (θ_run Cert.ReferenceIdeal.defs _ _).mono (fun r h c => ⟨by
            rw [(h c).1, (hagree c).1, (hagree c).2.1, (hagree c).2.2]
            exact (Cert.RowNorm.foldedMap_eq_centredMap _ _ _ (fun i => Cert.Finite.x_real m hpre c i)).symm,
          (h c).2⟩)
          (Cert.ReferenceIdeal.NormFrame.ref_run m' ρ')⟩⟩

end Cert.Proof

end
